-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn_part1 {F : FTy → Type} [FloatOps F] (main_v13 : IVec S_ 1) (main_v16 : IVec S4x4096x3 1) : IVec S_ 1 :=
  let main_c_5 : IVec S_ 1 := constantI S_ 1 1#1
  let main_v17 : IVec S_ 1 := (fun x v => Host.reduce IntOp.andi x v reducesTo_S4x4096x3_S_d0_1_2 h_S_) main_v16 main_c_5
  let main_v18 : IVec S_ 1 := andi main_v13 main_v17
  main_v18

def fn {F : FTy → Type} [FloatOps F] (main_arg0 : FVec F S4x4096x3 .f32) (main_arg1 : FVec F S4x4096x3 .f32) (main_arg2 : FVec F S4x4096x3 .f32) (main_arg3 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  let main_v9 : FVec F S4x4096x3 .f32 := Host.absf main_arg2
  let main_cst_2 : FVec F S_ .f32 := constant S_ .f32 0x7F800000#32
  let main_v10 : FVec F S4x4096x3 .f32 := broadcastInDim S4x4096x3 ![] bcast_S_S4x4096x3 main_cst_2
  let main_v11 : IVec S4x4096x3 1 := cmpf .olt main_v9 main_v10
  let main_c_3 : IVec S_ 1 := constantI S_ 1 1#1
  let main_v12 : IVec S_ 1 := (fun x v => Host.reduce IntOp.andi x v reducesTo_S4x4096x3_S_d0_1_2 h_S_) main_v11 main_c_3
  let main_v13 : IVec S_ 1 := andi main_v8 main_v12
  let main_v14 : FVec F S4x4096x3 .f32 := Host.absf main_arg3
  let main_cst_4 : FVec F S_ .f32 := constant S_ .f32 0x7F800000#32
  let main_v15 : FVec F S4x4096x3 .f32 := broadcastInDim S4x4096x3 ![] bcast_S_S4x4096x3 main_cst_4
  let main_v16 : IVec S4x4096x3 1 := cmpf .olt main_v14 main_v15
  fn_part1 (F := F) main_v13 main_v16
-- ==== Kernel.lean ====
abbrev S4x4096x3 : Shape := ⟨3, ![4, 4096, 3]⟩
abbrev S4x3x4096 : Shape := ⟨3, ![4, 3, 4096]⟩
abbrev S1x4x3x4096 : Shape := ⟨4, ![1, 4, 3, 4096]⟩
abbrev S4x4x3x4096 : Shape := ⟨4, ![4, 4, 3, 4096]⟩
abbrev S4x4x4096 : Shape := ⟨3, ![4, 4, 4096]⟩
abbrev S1x4x3x256 : Shape := ⟨4, ![1, 4, 3, 256]⟩
abbrev S1x4x256 : Shape := ⟨3, ![1, 4, 256]⟩
abbrev S4x3x256 : Shape := ⟨3, ![4, 3, 256]⟩
abbrev S4x256 : Shape := ⟨2, ![4, 256]⟩
abbrev S1x4x3x512 : Shape := ⟨4, ![1, 4, 3, 512]⟩
abbrev S4x3x512 : Shape := ⟨3, ![4, 3, 512]⟩
abbrev S4x256x512 : Shape := ⟨3, ![4, 256, 512]⟩
abbrev S4x1x256 : Shape := ⟨3, ![4, 1, 256]⟩
abbrev S4x256x1 : Shape := ⟨3, ![4, 256, 1]⟩
abbrev S4x1x512 : Shape := ⟨3, ![4, 1, 512]⟩
abbrev S4x512 : Shape := ⟨2, ![4, 512]⟩
abbrev S1x4x4096 : Shape := ⟨3, ![1, 4, 4096]⟩
abbrev S4x4096 : Shape := ⟨2, ![4, 4096]⟩
abbrev S_ : Shape := ⟨0, ![]⟩

abbrev nBuf : Space → Nat
  | .hbm => 50
  | .vmem => 6
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S4x4096x3, .f32⟩
  | .hbm, ⟨4, _⟩ => ⟨S4x3x4096, .f32⟩
  | .hbm, ⟨5, _⟩ => ⟨S4x3x4096, .f32⟩
  | .hbm, ⟨6, _⟩ => ⟨S4x3x4096, .f32⟩
  | .hbm, ⟨7, _⟩ => ⟨S4x3x4096, .f32⟩
  | .hbm, ⟨8, _⟩ => ⟨S1x4x3x4096, .f32⟩
  | .hbm, ⟨9, _⟩ => ⟨S1x4x3x4096, .f32⟩
  | .hbm, ⟨10, _⟩ => ⟨S1x4x3x4096, .f32⟩
  | .hbm, ⟨11, _⟩ => ⟨S1x4x3x4096, .f32⟩
  | .hbm, ⟨12, _⟩ => ⟨S4x4x3x4096, .f32⟩
  | .hbm, ⟨13, _⟩ => ⟨S4x3x4096, .f32⟩
  | .hbm, ⟨14, _⟩ => ⟨S4x3x4096, .f32⟩
  | .hbm, ⟨15, _⟩ => ⟨S4x3x4096, .f32⟩
  | .hbm, ⟨16, _⟩ => ⟨S4x3x4096, .f32⟩
  | .hbm, ⟨17, _⟩ => ⟨S1x4x3x4096, .f32⟩
  | .hbm, ⟨18, _⟩ => ⟨S1x4x3x4096, .f32⟩
  | .hbm, ⟨19, _⟩ => ⟨S1x4x3x4096, .f32⟩
  | .hbm, ⟨20, _⟩ => ⟨S1x4x3x4096, .f32⟩
  | .hbm, ⟨21, _⟩ => ⟨S4x4x3x4096, .f32⟩
  | .hbm, ⟨22, _⟩ => ⟨S4x4x4096, .f32⟩
  | .hbm, ⟨23, _⟩ => ⟨S1x4x4096, .f32⟩
  | .hbm, ⟨24, _⟩ => ⟨S4x4096, .f32⟩
  | .hbm, ⟨25, _⟩ => ⟨S1x4x4096, .f32⟩
  | .hbm, ⟨26, _⟩ => ⟨S4x4096, .f32⟩
  | .hbm, ⟨27, _⟩ => ⟨S1x4x4096, .f32⟩
  | .hbm, ⟨28, _⟩ => ⟨S4x4096, .f32⟩
  | .hbm, ⟨29, _⟩ => ⟨S1x4x4096, .f32⟩
  | .hbm, ⟨30, _⟩ => ⟨S4x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S1x4x3x256, .f32⟩
  | .local _ .vmem, ⟨1, _⟩ => ⟨S1x4x3x256, .f32⟩
  | .local _ .vmem, ⟨2, _⟩ => ⟨S1x4x3x4096, .f32⟩
  | .local _ .vmem, ⟨3, _⟩ => ⟨S1x4x3x4096, .f32⟩
  | .local _ .vmem, ⟨4, _⟩ => ⟨S1x4x256, .f32⟩
  | .local _ .vmem, ⟨5, _⟩ => ⟨S1x4x256, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst : Ref sig .tc := ⟨.hbm, 31, rfl⟩
abbrev main_v27 : Ref sig .tc := ⟨.hbm, 32, rfl⟩
abbrev main_cst_0 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S4x4096x3_S4x3x4096_0_2_1 : S4x4096x3.Transposes [0, 2, 1] S4x3x4096
  bcast_S4x3x4096_S1x4x3x4096_1_2_3 : S4x3x4096.BroadcastsInDim S1x4x3x4096 (![1, 2, 3] : Fin 3 → Fin S1x4x3x4096.rank)
  concatenates_S1x4x3x4096_S1x4x3x4096_S1x4x3x4096_S1x4x3x4096_S4x4x3x4096_d0 : Shape.Concatenates [S1x4x3x4096, S1x4x3x4096, S1x4x3x4096, S1x4x3x4096] S4x4x3x4096 0
  inb_S1x4x3x256_S1x4x3x256_0_0_0_0 : ∀ a, (![0, 0, 0, 0] : Fin 4 → Nat) a + S1x4x3x256.size a ≤ S1x4x3x256.size a
  h_S1x4x3x256 : 0 < S1x4x3x256.numel
  shapeCasts_S1x4x3x256_S4x3x256 : S1x4x3x256.ShapeCasts S4x3x256
  inb_S1x4x3x4096_S1x4x3x512_0_0_0_0 : ∀ a, (![0, 0, 0, 0] : Fin 4 → Nat) a + S1x4x3x512.size a ≤ S1x4x3x4096.size a
  h_S1x4x3x512 : 0 < S1x4x3x512.numel
  shapeCasts_S1x4x3x512_S4x3x512 : S1x4x3x512.ShapeCasts S4x3x512
  slices_S4x3x256_o0_0_0_S4x1x256 : S4x3x256.Slices ![0, 0, 0] S4x1x256
  shapeCasts_S4x1x256_S4x256 : S4x1x256.ShapeCasts S4x256
  shapeCasts_S4x256_S4x256x1 : S4x256.ShapeCasts S4x256x1
  slices_S4x3x512_o0_0_0_S4x1x512 : S4x3x512.Slices ![0, 0, 0] S4x1x512
  shapeCasts_S4x1x512_S4x512 : S4x1x512.ShapeCasts S4x512
  shapeCasts_S4x512_S4x1x512 : S4x512.ShapeCasts S4x1x512
  broadcasts_S4x256x1_S4x256x512 : S4x256x1.Broadcasts S4x256x512
  broadcasts_S4x1x512_S4x256x512 : S4x1x512.Broadcasts S4x256x512
  slices_S4x3x256_o0_1_0_S4x1x256 : S4x3x256.Slices ![0, 1, 0] S4x1x256
  slices_S4x3x512_o0_1_0_S4x1x512 : S4x3x512.Slices ![0, 1, 0] S4x1x512
  slices_S4x3x256_o0_2_0_S4x1x256 : S4x3x256.Slices ![0, 2, 0] S4x1x256
  slices_S4x3x512_o0_2_0_S4x1x512 : S4x3x512.Slices ![0, 2, 0] S4x1x512
  reduces_S4x256x512_S4x256 : S4x256x512.Reduces [2] S4x256
  inb_S1x4x3x4096_S1x4x3x512_0_0_0_512 : ∀ a, (![0, 0, 0, 512] : Fin 4 → Nat) a + S1x4x3x512.size a ≤ S1x4x3x4096.size a
  inb_S1x4x3x4096_S1x4x3x512_0_0_0_1024 : ∀ a, (![0, 0, 0, 1024] : Fin 4 → Nat) a + S1x4x3x512.size a ≤ S1x4x3x4096.size a
  inb_S1x4x3x4096_S1x4x3x512_0_0_0_1536 : ∀ a, (![0, 0, 0, 1536] : Fin 4 → Nat) a + S1x4x3x512.size a ≤ S1x4x3x4096.size a
  inb_S1x4x3x4096_S1x4x3x512_0_0_0_2048 : ∀ a, (![0, 0, 0, 2048] : Fin 4 → Nat) a + S1x4x3x512.size a ≤ S1x4x3x4096.size a
  inb_S1x4x3x4096_S1x4x3x512_0_0_0_2560 : ∀ a, (![0, 0, 0, 2560] : Fin 4 → Nat) a + S1x4x3x512.size a ≤ S1x4x3x4096.size a
  inb_S1x4x3x4096_S1x4x3x512_0_0_0_3072 : ∀ a, (![0, 0, 0, 3072] : Fin 4 → Nat) a + S1x4x3x512.size a ≤ S1x4x3x4096.size a
  inb_S1x4x3x4096_S1x4x3x512_0_0_0_3584 : ∀ a, (![0, 0, 0, 3584] : Fin 4 → Nat) a + S1x4x3x512.size a ≤ S1x4x3x4096.size a
  inb_S1x4x256_S1x4x256_0_0_0 : ∀ a, (![0, 0, 0] : Fin 3 → Nat) a + S1x4x256.size a ≤ S1x4x256.size a
  h_S1x4x256 : 0 < S1x4x256.numel
  shapeCasts_S1x4x256_S4x256 : S1x4x256.ShapeCasts S4x256
  shapeCasts_S4x256_S1x4x256 : S4x256.ShapeCasts S1x4x256
  slices_S4x4x4096_S1x4x4096_0_0_0 : S4x4x4096.Slices ![0, 0, 0] S1x4x4096
  shapeCasts_S1x4x4096_S4x4096 : S1x4x4096.ShapeCasts S4x4096
  slices_S4x4x4096_S1x4x4096_1_0_0 : S4x4x4096.Slices ![1, 0, 0] S1x4x4096
  slices_S4x4x4096_S1x4x4096_2_0_0 : S4x4x4096.Slices ![2, 0, 0] S1x4x4096
  slices_S4x4x4096_S1x4x4096_3_0_0 : S4x4x4096.Slices ![3, 0, 0] S1x4x4096
  reducesTo_S4x4096_S_d0_1 : S4x4096.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x3x256.size a ≤ S4x4x3x4096.size a
  hwx0_0 : ∀ i : grid0.Coords, EltTy.bits .f32 = 32 ∨ (Rect.block (s := S4x4x3x4096) S1x4x3x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x3x4096.size a ≤ S4x4x3x4096.size a
  hwx0_1 : ∀ i : grid0.Coords, EltTy.bits .f32 = 32 ∨ (Rect.block (s := S4x4x3x4096) S1x4x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x256.size a ≤ S4x4x4096.size a
  hwx0_2 : ∀ i : grid0.Coords, EltTy.bits .f32 = 32 ∨ (Rect.block (s := S4x4x4096) S1x4x256.size (cc0_transform_2 i) (hinb0_2 i)).WholeWords (EltTy.packing .f32)

variable [Facts₀]

abbrev win0_0 : Pipeline.Window sig grid0 :=
  Pipeline.Window.ofSpec (Memref.whole main_v8) S1x4x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x4x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x4x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 91
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S4x4096x3, .f32⟩
  | .hbm, ⟨4, _⟩ => ⟨S4x4096x3, .f32⟩
  | .hbm, ⟨5, _⟩ => ⟨S_, .f32⟩
  | .hbm, ⟨6, _⟩ => ⟨S4x4096, .f32⟩
  | .hbm, ⟨7, _⟩ => ⟨S4x4096x3, .f32⟩
  | .hbm, ⟨8, _⟩ => ⟨S_, .f32⟩
  | .hbm, ⟨9, _⟩ => ⟨S4x4096, .f32⟩
  | .hbm, ⟨10, _⟩ => ⟨S4x4096x4096, .f32⟩
  | .hbm, ⟨11, _⟩ => ⟨S4x4096x1, .f32⟩
  | .hbm, ⟨12, _⟩ => ⟨S4x1x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S4x4096x4096, .f32⟩
  | .hbm, ⟨24, _⟩ => ⟨S_, .f32⟩
  | .hbm, ⟨25, _⟩ => ⟨S4x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4x4096x3, .f32⟩
  | .hbm, ⟨38, _⟩ => ⟨S_, .f32⟩
  | .hbm, ⟨39, _⟩ => ⟨S4x4096, .f32⟩
  | .hbm, ⟨40, _⟩ => ⟨S4x4096x3, .f32⟩
  | .hbm, ⟨41, _⟩ => ⟨S_, .f32⟩
  | .hbm, ⟨42, _⟩ => ⟨S4x4096, .f32⟩
  | .hbm, ⟨43, _⟩ => ⟨S4x4096x4096, .f32⟩
  | .hbm, ⟨44, _⟩ => ⟨S4x4096x1, .f32⟩
  | .hbm, ⟨45, _⟩ => ⟨S4x1x4096, .f32⟩
  | .hbm, ⟨46, _⟩ => ⟨S4x4096x4096, .f32⟩
  | .hbm, ⟨47, _⟩ => ⟨S4x4096x4096, .f32⟩
  | .hbm, ⟨48, _⟩ => ⟨S4x4096x4096, .f32⟩
  | .hbm, ⟨49, _⟩ => ⟨S_, .f32⟩
  | .hbm, ⟨50, _⟩ => ⟨S4x4096x4096, .f32⟩
  | .hbm, ⟨51, _⟩ => ⟨S4x4096x4096, .f32⟩
  | .hbm, ⟨52, _⟩ => ⟨S4x4096x4096, .f32⟩
  | .hbm, ⟨53, _⟩ => ⟨S_, .f32⟩
  | .hbm, ⟨54, _⟩ => ⟨S4x4096x4096, .f32⟩
  | .hbm, ⟨55, _⟩ => ⟨S4x4096x4096, .f32⟩
  | .hbm, ⟨56, _⟩ => ⟨S4x4096x4096, .f32⟩
  | .hbm, ⟨57, _⟩ => ⟨S_, .f32⟩
  | .hbm, ⟨58, _⟩ => ⟨S4x4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S4x4096x3, .f32⟩
  | .hbm, ⟨64, _⟩ => ⟨S_, .f32⟩
  | .hbm, ⟨65, _⟩ => ⟨S4x4096, .f32⟩
  | .hbm, ⟨66, _⟩ => ⟨S4x4096x3, .f32⟩
  | .hbm, ⟨67, _⟩ => ⟨S_, .f32⟩
  | .hbm, ⟨68, _⟩ => ⟨S4x4096, .f32⟩
  | .hbm, ⟨69, _⟩ => ⟨S4x4096x4096, .f32⟩
  | .hbm, ⟨70, _⟩ => ⟨S4x4096x1, .f32⟩
  | .hbm, ⟨71, _⟩ => ⟨S4x1x4096, .f32⟩
  | .hbm, ⟨72, _⟩ => ⟨S4x4096x4096, .f32⟩
  | .hbm, ⟨73, _⟩ => ⟨S4x4096x4096, .f32⟩
  | .hbm, ⟨74, _⟩ => ⟨S4x4096x4096, .f32⟩
  | .hbm, ⟨75, _⟩ => ⟨S_, .f32⟩
  | .hbm, ⟨76, _⟩ => ⟨S4x4096x4096, .f32⟩
  | .hbm, ⟨77, _⟩ => ⟨S4x4096x4096, .f32⟩
  | .hbm, ⟨78, _⟩ => ⟨S4x4096x4096, .f32⟩
  | .hbm, ⟨79, _⟩ => ⟨S_, .f32⟩
  | .hbm, ⟨80, _⟩ => ⟨S4x4096x4096, .f32⟩
  | .hbm, ⟨81, _⟩ => ⟨S4x4096x4096, .f32⟩
  | .hbm, ⟨82, _⟩ => ⟨S4x4096x4096, .f32⟩
  | .hbm, ⟨83, _⟩ => ⟨S_, .f32⟩
  | .hbm, ⟨84, _⟩ => ⟨S4x4096, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_cst_8 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_9 : Ref sig .tc := ⟨.hbm, 38, rfl⟩
abbrev main_v24 : Ref sig .tc := ⟨.hbm, 39, rfl⟩
abbrev main_v25 : Ref sig .tc := ⟨.hbm, 40, rfl⟩
abbrev main_cst_10 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_12 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩
abbrev main_cst_14 : Ref sig .tc := ⟨.hbm, 59, rfl⟩
abbrev main_v40 : Ref sig .tc := ⟨.hbm, 60, rfl⟩
abbrev main_cst_15 : Ref sig .tc := ⟨.hbm, 61, rfl⟩
abbrev main_v41 : Ref sig .tc := ⟨.hbm, 62, rfl⟩
abbrev main_v42 : Ref sig .tc := ⟨.hbm, 63, rfl⟩
abbrev main_cst_16 : Ref sig .tc := ⟨.hbm, 64, rfl⟩
abbrev main_v43 : Ref sig .tc := ⟨.hbm, 65, rfl⟩
abbrev main_v44 : Ref sig .tc := ⟨.hbm, 66, rfl⟩
abbrev main_cst_17 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_18 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_19 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_20 : Ref sig .tc := ⟨.hbm, 83, rfl⟩
abbrev main_v58 : Ref sig .tc := ⟨.hbm, 84, rfl⟩
abbrev main_cst_21 : Ref sig .tc := ⟨.hbm, 85, rfl⟩
abbrev main_v59 : Ref sig .tc := ⟨.hbm, 86, rfl⟩
abbrev main_cst_22 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096_S_d0_1 : S4x4096.ReducesTo [0, 1] S_
  reducesTo_S4x4096x4096_S4x4096_d1 : S4x4096x4096.ReducesTo [1] S4x4096
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.KernelMain.lean ====
/-
  The program around its one launch. @main is eighteen host operations (four transposes, their lifts to a leading
  unit axis and two concatenations, building the stacked clouds [4,4,3,4096]), the launch over a 4 × 16 grid, and
  twenty-seven host operations reading the launch's result (four slices, their means, three additions). No host
  operation writes an argument array, before or after the launch; window `w`'s block at grid point `t` is read off
  the array the launch finds; and a run to the launch library's post is the frame claim's post.
-/
import proofs.«178926_j66022237274638_2_alg».proof.Proof.Gen.Kernel.Launch
import proofs.«178926_j66022237274638_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the launch -/

/-- The buffers' contents on core `c` when the launch begins: the host operations before it applied to memory. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the launch, the launch, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the launch touch only the launch's arrays and buffers the launch does not use. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the launch's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.nary_writes, StableHlo.reshape_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's staging buffer holds its block at every point (it is fetched at each). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The second input's staging buffer holds its block at every point: fetched when the first grid coordinate moves, and
    otherwise the block index has not moved and the body left the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the launch library's post -/

/-- For any proof data whose arrays are the contents the launch finds, a run ending with the launch's arrays at what the
    library computes and every other buffer as the later host operations leave it ends with the four argument arrays
    as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

end Cert.Kernel.Frame

end
-- ==== Proof.KernelBody.lean ====
/-
  What the kernel body does at one grid point. It reads its first block (one pair's first cloud, 256 points) whole, its
  second block (the pair's second cloud, all 4096 points) in eight slices of 512 points, and overwrites its output
  block with one value: `rowMin x0 x1`, written over the skeleton's payloads in the order the body binds them — for
  each slice the squared distances to its 512 points, their minimum along the slice folded into the running minimum
  that starts at +∞, then the clamp at zero and the square root. The body's triple: from the two input buffers at
  contents `x0`, `x1` and the output buffer at anything, it ends with the inputs as they were and the output buffer
  holding `rowMin x0 x1` everywhere.
-/
import proofs.«178926_j66022237274638_2_alg».proof.Proof.Gen.Kernel.Launch
import proofs.«178926_j66022237274638_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The first input block, whole. -/
abbrev rA : Rect S1x4x3x256 := Rect.unit (s := S1x4x3x256) ![0, 0, 0, 0] S1x4x3x256.size inb_S1x4x3x256_S1x4x3x256_0_0_0_0
/-- Points 0 to 511 of the second input block. -/
abbrev rB0 : Rect S1x4x3x4096 := Rect.unit (s := S1x4x3x4096) ![0, 0, 0, 0] S1x4x3x512.size inb_S1x4x3x4096_S1x4x3x512_0_0_0_0
/-- Points 512 to 1023 of the second input block. -/
abbrev rB1 : Rect S1x4x3x4096 := Rect.unit (s := S1x4x3x4096) ![0, 0, 0, 512] S1x4x3x512.size inb_S1x4x3x4096_S1x4x3x512_0_0_0_512
/-- Points 1024 to 1535 of the second input block. -/
abbrev rB2 : Rect S1x4x3x4096 := Rect.unit (s := S1x4x3x4096) ![0, 0, 0, 1024] S1x4x3x512.size inb_S1x4x3x4096_S1x4x3x512_0_0_0_1024
/-- Points 1536 to 2047 of the second input block. -/
abbrev rB3 : Rect S1x4x3x4096 := Rect.unit (s := S1x4x3x4096) ![0, 0, 0, 1536] S1x4x3x512.size inb_S1x4x3x4096_S1x4x3x512_0_0_0_1536
/-- Points 2048 to 2559 of the second input block. -/
abbrev rB4 : Rect S1x4x3x4096 := Rect.unit (s := S1x4x3x4096) ![0, 0, 0, 2048] S1x4x3x512.size inb_S1x4x3x4096_S1x4x3x512_0_0_0_2048
/-- Points 2560 to 3071 of the second input block. -/
abbrev rB5 : Rect S1x4x3x4096 := Rect.unit (s := S1x4x3x4096) ![0, 0, 0, 2560] S1x4x3x512.size inb_S1x4x3x4096_S1x4x3x512_0_0_0_2560
/-- Points 3072 to 3583 of the second input block. -/
abbrev rB6 : Rect S1x4x3x4096 := Rect.unit (s := S1x4x3x4096) ![0, 0, 0, 3072] S1x4x3x512.size inb_S1x4x3x4096_S1x4x3x512_0_0_0_3072
/-- Points 3584 to 4095 of the second input block. -/
abbrev rB7 : Rect S1x4x3x4096 := Rect.unit (s := S1x4x3x4096) ![0, 0, 0, 3584] S1x4x3x512.size inb_S1x4x3x4096_S1x4x3x512_0_0_0_3584
/-- The output block, whole. -/
abbrev rO : Rect S1x4x256 := Rect.unit (s := S1x4x256) ![0, 0, 0] S1x4x256.size inb_S1x4x256_S1x4x256_0_0_0

/-! ## What the body stores -/

/-- The value the body stores into its output block, from the contents of its two input blocks: the payloads in the
    order the body binds them. -/
def rowMin (x0 : Vec F S1x4x3x256 .f32) (x1 : Vec F S1x4x3x4096 .f32) : Vec F S1x4x256 .f32 :=
  let v1 := k0_pay2 (View.ld x0 rA)
  let v40 := k0_pay3 (View.ld x0 rA) (View.ld x1 rB0)
  let v42 := k0_pay4 (View.ld x1 rB1)
  let v78 := k0_pay5 v1 v40 v42
  let v80 := k0_pay6 (View.ld x1 rB2)
  let v92 := k0_pay7 v1 (View.ld x1 rB2)
  let v95 := k0_pay8 v1
  let v116 := k0_pay9 v1 v78 v80 v92 v95
  let v141 := k0_pay11 v1 (View.ld x1 rB3)
  let v148 := k0_pay12 v1
  let v149 := k0_pay13 (View.ld x1 rB3)
  let v192 := k0_pay14 v1 v116 v141 v148 v149 (View.ld x1 rB4)
  let v194 := k0_pay15 (View.ld x1 rB5)
  let v195 := k0_pay16 (F := F)
  let v197 := k0_pay17 v1
  let v230 := k0_pay18 v1 v192 v194 v195 v197
  let v232 := k0_pay19 (View.ld x1 rB6)
  let v244 := k0_pay20 v1 (View.ld x1 rB6)
  let v250 := k0_pay21 (View.ld x1 rB6)
  let v251 := k0_pay22 v1
  let v268 := k0_pay23 v1 v230 v232 v244 v250 v251
  let v304 := k0_pay24 v1 (View.ld x1 rB7)
  k0_pay1 v268 v304

/-- The output buffer after the body: its one store, which covers it. -/
def out0_2 (x0 : Vec F S1x4x3x256 .f32) (x1 : Vec F S1x4x3x4096 .f32) : Vec F S1x4x256 .f32 :=
  View.canon [⟨rO, rowMin x0 x1⟩]

/-- The one store tiles the output buffer. -/
theorem cover0_2 (p0 : Vec F S1x4x256 .f32) (y : S1x4x256.Idx) :
    ∃ pc ∈ ([⟨rO, p0⟩] : List (View.Piece (Elt F) S1x4x256 .f32)), y ∈ pc.1.set :=
  View.cover_of_tiled [⟨rO, p0⟩] S1x4x256.size (by rfl) y

/-! ## The body's triple -/

set_option maxHeartbeats 4000000 in
/-- The body on whole staging buffers, the inputs' at contents `x0`, `x1` and the output's at anything, runs to its
    continuation holding the inputs' as they were and the output's at `out0_2 x0 x1`. -/
theorem sound_kernel (c : Dev nD) (E : Set ℕ) (i : grid0.Coords)
    (arg2 : Memref sig .tc .vmem S1x4x3x256 .f32) (harg2 : arg2.IsWhole)
    (arg3 : Memref sig .tc .vmem S1x4x3x4096 .f32) (harg3 : arg3.IsWhole)
    (arg4 : Memref sig .tc .vmem S1x4x256 .f32) (harg4 : arg4.IsWhole)
    (x0 : Vec F S1x4x3x256 .f32) (x1 : Vec F S1x4x3x4096 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__row_min_kernel i arg2 harg2 arg3 harg3 arg4 harg4) K := by
  simp only [cc0__row_min_kernel_eq_skeleton]; unfold cc0__row_min_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.Kernel.Frame

end
-- ==== Proof.KernelRun.lean ====
/-
  The launch's run. The proof data: each array is what the launch finds; after the body at grid point `t` each input's
  staging buffer holds its block at `t` and the output's holds `out0_2` of the two input blocks; nothing else is
  touched. The body meets its obligation at every point, so the launch library gives the run: every weakly fair
  execution of @main ends, nothing faulting, with the launch's arrays at what the library computes from the proof data
  and every other buffer as the later host operations leave it. The frame claim follows.
-/
import proofs.«178926_j66022237274638_2_alg».proof.Proof.KernelMain
import proofs.«178926_j66022237274638_2_alg».proof.Proof.KernelBody

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the launch finds them; after the body at point `t` the inputs' buffers at their blocks and
    the output's at the body's value of those blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, nothing faulting, with every
    array of the launch at what the library computes from the proof data and every other unscoped buffer as the host
    operations after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Frame

end
-- ==== Proof.KernelIdealMain.lean ====
/-
  The program around its one launch. @main is eighteen host operations (four transposes, their lifts to a leading
  unit axis and two concatenations, building the stacked clouds [4,4,3,4096]), the launch over a 4 × 16 grid, and
  twenty-seven host operations reading the launch's result (four slices, their means, three additions). No host
  operation writes an argument array, before or after the launch; window `w`'s block at grid point `t` is read off
  the array the launch finds; and a run to the launch library's post is the frame claim's post.
-/
import proofs.«178926_j66022237274638_2_alg».proof.Proof.Gen.KernelIdeal.Launch
import proofs.«178926_j66022237274638_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the launch -/

/-- The buffers' contents on core `c` when the launch begins: the host operations before it applied to memory. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the launch, the launch, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the launch touch only the launch's arrays and buffers the launch does not use. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the launch's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.nary_writes, StableHlo.reshape_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's staging buffer holds its block at every point (it is fetched at each). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The second input's staging buffer holds its block at every point: fetched when the first grid coordinate moves, and
    otherwise the block index has not moved and the body left the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the launch library's post -/

/-- For any proof data whose arrays are the contents the launch finds, a run ending with the launch's arrays at what the
    library computes and every other buffer as the later host operations leave it ends with the four argument arrays
    as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

end Cert.KernelIdeal.Frame

end
-- ==== Proof.KernelIdealBody.lean ====
/-
  What the kernel body does at one grid point. It reads its first block (one pair's first cloud, 256 points) whole, its
  second block (the pair's second cloud, all 4096 points) in eight slices of 512 points, and overwrites its output
  block with one value: `rowMin x0 x1`, written over the skeleton's payloads in the order the body binds them — for
  each slice the squared distances to its 512 points, their minimum along the slice folded into the running minimum
  that starts at +∞, then the clamp at zero and the square root. The body's triple: from the two input buffers at
  contents `x0`, `x1` and the output buffer at anything, it ends with the inputs as they were and the output buffer
  holding `rowMin x0 x1` everywhere.
-/
import proofs.«178926_j66022237274638_2_alg».proof.Proof.Gen.KernelIdeal.Launch
import proofs.«178926_j66022237274638_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The first input block, whole. -/
abbrev rA : Rect S1x4x3x256 := Rect.unit (s := S1x4x3x256) ![0, 0, 0, 0] S1x4x3x256.size inb_S1x4x3x256_S1x4x3x256_0_0_0_0
/-- Points 0 to 511 of the second input block. -/
abbrev rB0 : Rect S1x4x3x4096 := Rect.unit (s := S1x4x3x4096) ![0, 0, 0, 0] S1x4x3x512.size inb_S1x4x3x4096_S1x4x3x512_0_0_0_0
/-- Points 512 to 1023 of the second input block. -/
abbrev rB1 : Rect S1x4x3x4096 := Rect.unit (s := S1x4x3x4096) ![0, 0, 0, 512] S1x4x3x512.size inb_S1x4x3x4096_S1x4x3x512_0_0_0_512
/-- Points 1024 to 1535 of the second input block. -/
abbrev rB2 : Rect S1x4x3x4096 := Rect.unit (s := S1x4x3x4096) ![0, 0, 0, 1024] S1x4x3x512.size inb_S1x4x3x4096_S1x4x3x512_0_0_0_1024
/-- Points 1536 to 2047 of the second input block. -/
abbrev rB3 : Rect S1x4x3x4096 := Rect.unit (s := S1x4x3x4096) ![0, 0, 0, 1536] S1x4x3x512.size inb_S1x4x3x4096_S1x4x3x512_0_0_0_1536
/-- Points 2048 to 2559 of the second input block. -/
abbrev rB4 : Rect S1x4x3x4096 := Rect.unit (s := S1x4x3x4096) ![0, 0, 0, 2048] S1x4x3x512.size inb_S1x4x3x4096_S1x4x3x512_0_0_0_2048
/-- Points 2560 to 3071 of the second input block. -/
abbrev rB5 : Rect S1x4x3x4096 := Rect.unit (s := S1x4x3x4096) ![0, 0, 0, 2560] S1x4x3x512.size inb_S1x4x3x4096_S1x4x3x512_0_0_0_2560
/-- Points 3072 to 3583 of the second input block. -/
abbrev rB6 : Rect S1x4x3x4096 := Rect.unit (s := S1x4x3x4096) ![0, 0, 0, 3072] S1x4x3x512.size inb_S1x4x3x4096_S1x4x3x512_0_0_0_3072
/-- Points 3584 to 4095 of the second input block. -/
abbrev rB7 : Rect S1x4x3x4096 := Rect.unit (s := S1x4x3x4096) ![0, 0, 0, 3584] S1x4x3x512.size inb_S1x4x3x4096_S1x4x3x512_0_0_0_3584
/-- The output block, whole. -/
abbrev rO : Rect S1x4x256 := Rect.unit (s := S1x4x256) ![0, 0, 0] S1x4x256.size inb_S1x4x256_S1x4x256_0_0_0

/-! ## What the body stores -/

/-- The value the body stores into its output block, from the contents of its two input blocks: the payloads in the
    order the body binds them. -/
def rowMin (x0 : Vec F S1x4x3x256 .f32) (x1 : Vec F S1x4x3x4096 .f32) : Vec F S1x4x256 .f32 :=
  let v1 := k0_pay2 (View.ld x0 rA)
  let v40 := k0_pay3 (View.ld x0 rA) (View.ld x1 rB0)
  let v42 := k0_pay4 (View.ld x1 rB1)
  let v78 := k0_pay5 v1 v40 v42
  let v80 := k0_pay6 (View.ld x1 rB2)
  let v92 := k0_pay7 v1 (View.ld x1 rB2)
  let v95 := k0_pay8 v1
  let v116 := k0_pay9 v1 v78 v80 v92 v95
  let v141 := k0_pay11 v1 (View.ld x1 rB3)
  let v148 := k0_pay12 v1
  let v149 := k0_pay13 (View.ld x1 rB3)
  let v192 := k0_pay14 v1 v116 v141 v148 v149 (View.ld x1 rB4)
  let v194 := k0_pay15 (View.ld x1 rB5)
  let v195 := k0_pay16 (F := F)
  let v197 := k0_pay17 v1
  let v230 := k0_pay18 v1 v192 v194 v195 v197
  let v232 := k0_pay19 (View.ld x1 rB6)
  let v244 := k0_pay20 v1 (View.ld x1 rB6)
  let v250 := k0_pay21 (View.ld x1 rB6)
  let v251 := k0_pay22 v1
  let v268 := k0_pay23 v1 v230 v232 v244 v250 v251
  let v304 := k0_pay24 v1 (View.ld x1 rB7)
  k0_pay1 v268 v304

/-- The output buffer after the body: its one store, which covers it. -/
def out0_2 (x0 : Vec F S1x4x3x256 .f32) (x1 : Vec F S1x4x3x4096 .f32) : Vec F S1x4x256 .f32 :=
  View.canon [⟨rO, rowMin x0 x1⟩]

/-- The one store tiles the output buffer. -/
theorem cover0_2 (p0 : Vec F S1x4x256 .f32) (y : S1x4x256.Idx) :
    ∃ pc ∈ ([⟨rO, p0⟩] : List (View.Piece (Elt F) S1x4x256 .f32)), y ∈ pc.1.set :=
  View.cover_of_tiled [⟨rO, p0⟩] S1x4x256.size (by rfl) y

/-! ## The body's triple -/

set_option maxHeartbeats 4000000 in
/-- The body on whole staging buffers, the inputs' at contents `x0`, `x1` and the output's at anything, runs to its
    continuation holding the inputs' as they were and the output's at `out0_2 x0 x1`. -/
theorem sound_kernel (c : Dev nD) (E : Set ℕ) (i : grid0.Coords)
    (arg2 : Memref sig .tc .vmem S1x4x3x256 .f32) (harg2 : arg2.IsWhole)
    (arg3 : Memref sig .tc .vmem S1x4x3x4096 .f32) (harg3 : arg3.IsWhole)
    (arg4 : Memref sig .tc .vmem S1x4x256 .f32) (harg4 : arg4.IsWhole)
    (x0 : Vec F S1x4x3x256 .f32) (x1 : Vec F S1x4x3x4096 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__row_min_kernel i arg2 harg2 arg3 harg3 arg4 harg4) K := by
  simp only [cc0__row_min_kernel_eq_skeleton]; unfold cc0__row_min_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.KernelIdeal.Frame

end
-- ==== Proof.KernelIdealRun.lean ====
/-
  The launch's run. The proof data: each array is what the launch finds; after the body at grid point `t` each input's
  staging buffer holds its block at `t` and the output's holds `out0_2` of the two input blocks; nothing else is
  touched. The body meets its obligation at every point, so the launch library gives the run: every weakly fair
  execution of @main ends, nothing faulting, with the launch's arrays at what the library computes from the proof data
  and every other buffer as the later host operations leave it. The frame claim follows.
-/
import proofs.«178926_j66022237274638_2_alg».proof.Proof.KernelIdealMain
import proofs.«178926_j66022237274638_2_alg».proof.Proof.KernelIdealBody

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the launch finds them; after the body at point `t` the inputs' buffers at their blocks and
    the output's at the body's value of those blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, nothing faulting, with every
    array of the launch at what the library computes from the proof data and every other unscoped buffer as the host
    operations after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Frame

end
-- ==== Proof.KernelIdealClosed.lean ====
/-
  The value the kernel body stores, as one closed form. The body's payloads compose to: the first block's points
  `pts`, each 512-point slice of the second block `slab`, for a slice the squared distances `d2` (for each of the three
  coordinates the points' coordinate laid along the rows, the slice's along the columns, their difference squared,
  the three added to zero in order), the minimum of those along the slice `red`, the eight minima folded from +∞,
  the clamp at zero and the square root.
-/
import proofs.«178926_j66022237274638_2_alg».proof.Proof.KernelIdealBody
import Idealize.ShloMosaic.Lib.ValueIdx

set_option maxRecDepth 16384

noncomputable section

namespace Cert.KernelIdeal.RowMin

open Cert.KernelIdeal Cert.KernelIdeal.Gen Cert.KernelIdeal.Frame
open Idealize.ShloMosaic Idealize.ShloMosaic.TcCoe Idealize.ShloMosaic.ValueIdx Idealize.SL.Sem

/-! ## The closed form -/

section Closed
variable {F : FTy → Type} [FloatOps F]

/-- The first block's points, the leading unit axis dropped. -/
def pts (x0 : Vec F S1x4x3x256 .f32) : FVec F S4x3x256 .f32 :=
  shapeCast S4x3x256 (View.ld x0 rA) shapeCasts_S1x4x3x256_S4x3x256
/-- A 512-point slice of the second block, the leading unit axis dropped. -/
def slab (v : Vec F S1x4x3x512 .f32) : FVec F S4x3x512 .f32 :=
  shapeCast S4x3x512 v shapeCasts_S1x4x3x512_S4x3x512
/-- One coordinate of the 256 points, laid along the rows of a 256 × 512 table per batch. -/
def col (v1 : FVec F S4x3x256 .f32) (off : Fin 3 → Nat) (h : S4x3x256.Slices off S4x1x256) : FVec F S4x256x512 .f32 :=
  broadcastTo S4x256x512 (shapeCast S4x256x1 (shapeCast S4x256 (extractStridedSlice S4x1x256 off v1 h) shapeCasts_S4x1x256_S4x256) shapeCasts_S4x256_S4x256x1) broadcasts_S4x256x1_S4x256x512
/-- One coordinate of the slice's 512 points, laid along the columns. -/
def row (vb : FVec F S4x3x512 .f32) (off : Fin 3 → Nat) (h : S4x3x512.Slices off S4x1x512) : FVec F S4x256x512 .f32 :=
  broadcastTo S4x256x512 (shapeCast S4x1x512 (shapeCast S4x512 (extractStridedSlice S4x1x512 off vb h) shapeCasts_S4x1x512_S4x512) shapeCasts_S4x512_S4x1x512) broadcasts_S4x1x512_S4x256x512
/-- A difference squared. -/
def sqd (a b : FVec F S4x256x512 .f32) : FVec F S4x256x512 .f32 := mulf (subf a b) (subf a b)
/-- The squared distances from the 256 points to a slice's 512 points. -/
def d2 (v1 : FVec F S4x3x256 .f32) (vb : FVec F S4x3x512 .f32) : FVec F S4x256x512 .f32 :=
  addf (addf (addf (broadcast S4x256x512 (Scalar.ofBits .f32 0x00000000#32))
      (sqd (col v1 ![0, 0, 0] slices_S4x3x256_o0_0_0_S4x1x256) (row vb ![0, 0, 0] slices_S4x3x512_o0_0_0_S4x1x512)))
      (sqd (col v1 ![0, 1, 0] slices_S4x3x256_o0_1_0_S4x1x256) (row vb ![0, 1, 0] slices_S4x3x512_o0_1_0_S4x1x512)))
      (sqd (col v1 ![0, 2, 0] slices_S4x3x256_o0_2_0_S4x1x256) (row vb ![0, 2, 0] slices_S4x3x512_o0_2_0_S4x1x512))
/-- f32 is one of the formats a minimum is taken in, -/
theorem fmt32 : FKind.Formats .f32 := .inl rfl
/-- and the pattern of +∞ is the value a minimum starts from. -/
theorem inf_neutral : (0x7F800000#32 : BitVec 32) = FKind.minimumf.neutral .f32 fmt32 := rfl
/-- The minimum along a slice. -/
def red (x : FVec F S4x256x512 .f32) : FVec F S4x256 .f32 :=
  multiReduction .minimumf [2] S4x256 x 0x7F800000#32 reduces_S4x256x512_S4x256 fmt32 inf_neutral
/-- The least squared distance over the eight slices, from +∞. -/
def least (x0 : Vec F S1x4x3x256 .f32) (x1 : Vec F S1x4x3x4096 .f32) : FVec F S4x256 .f32 :=
  minimumf (minimumf (minimumf (minimumf (minimumf (minimumf (minimumf (minimumf
    (broadcast S4x256 (Scalar.ofBits .f32 0x7F800000#32))
    (red (d2 (pts x0) (slab (View.ld x1 rB0)))))
    (red (d2 (pts x0) (slab (View.ld x1 rB1)))))
    (red (d2 (pts x0) (slab (View.ld x1 rB2)))))
    (red (d2 (pts x0) (slab (View.ld x1 rB3)))))
    (red (d2 (pts x0) (slab (View.ld x1 rB4)))))
    (red (d2 (pts x0) (slab (View.ld x1 rB5)))))
    (red (d2 (pts x0) (slab (View.ld x1 rB6)))))
    (red (d2 (pts x0) (slab (View.ld x1 rB7))))
/-- The body's value: the root of the clamped least squared distance, a leading unit axis added. -/
def closed (x0 : Vec F S1x4x3x256 .f32) (x1 : Vec F S1x4x3x4096 .f32) : Vec F S1x4x256 .f32 :=
  shapeCast S1x4x256 (sqrt (maximumf (least x0 x1) (broadcast S4x256 (Scalar.ofBits .f32 0x00000000#32)))) shapeCasts_S4x256_S1x4x256

/-- The payloads compose to the closed form. -/
theorem rowMin_eq_closed (x0 : Vec F S1x4x3x256 .f32) (x1 : Vec F S1x4x3x4096 .f32) : rowMin x0 x1 = closed x0 x1 := rfl

end Closed

end Cert.KernelIdeal.RowMin

end
-- ==== Proof.LibMinimumSingle.lean ====
/-
  A float `vector.multi_reduction <minimumf>` over ONE axis, read at the ideal values: at each reduced index it is the
  fold of `min` from the accumulator's value over that axis's coordinates of the source, the reduced index with the
  coordinate inserted. The companion for minima of the library's reading of a maximum over one axis.
-/
import Idealize.ShloMosaic.PureOps.Ideal.Laws

namespace Cert.MinimumSingle

open Idealize.ShloMosaic

variable {φ : FTy}

/-- A minimum along one axis is the fold of `min` over that axis's coordinates, from the accumulator's value. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 pattern of +∞ is the top extended real. -/
theorem ofBits_posInf_f32 : Ideal.ofBits .f32 0x7F800000#32 = (⊤ : EReal) := by
  simp [Ideal.ofBits, Ideal.ieee]

end Cert.MinimumSingle
-- ==== Proof.KernelIdealRowMin.lean ====
/-
  The kernel body's value read at an element, at the ideal values. Each layout step of the closed form moves an index
  to one index of its operand; a slice's squared distances at (b, r, k) are `blockSq` at the slice's k-th point; the
  minimum along a slice is a fold of `min` from ⊤; eight such folds over the slices are one fold over all 4096 points.
  So at batch `b` and point `r` the body stores the root of the clamped least value of `blockSq x0 x1 b r n` over `n`.
-/
import proofs.«178926_j66022237274638_2_alg».proof.Proof.KernelIdealClosed
import proofs.«178926_j66022237274638_2_alg».proof.Proof.LibMinimumSingle
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RowMin

open Cert.KernelIdeal Cert.KernelIdeal.Gen Cert.KernelIdeal.Frame
open Idealize.ShloMosaic Idealize.ShloMosaic.TcCoe Idealize.ShloMosaic.ValueIdx Idealize.SL.Sem

/-! ## The closed form read at an element, at the ideal values -/

theorem pts_apply (x0 : Vec Ideal S1x4x3x256 .f32) (b : Fin 4) (d : Fin 3) (r : Fin 256) :
    pts x0 (ix3 b d r) = x0 (ix4 (0 : Fin 1) b d r) := by
  unfold pts
  rw [shapeCast_1abc_abc_apply]
  rw [View.ld_unit_zero (funext fun a => by fin_cases a <;> rfl)]

theorem slab_apply (x1 : Vec Ideal S1x4x3x4096 .f32) (o : Nat) (inb : ∀ a, (![0, 0, 0, o] : Fin 4 → Nat) a + S1x4x3x512.size a ≤ S1x4x3x4096.size a)
    (b : Fin 4) (d : Fin 3) (n : Fin 512) (ho : o + n.val < 4096) :
    slab (View.ld x1 (Rect.unit (s := S1x4x3x4096) ![0, 0, 0, o] S1x4x3x512.size inb)) (ix3 b d n) = x1 (ix4 (0 : Fin 1) b d ⟨o + n.val, ho⟩) := by
  unfold slab
  rw [shapeCast_1abc_abc_apply]
  show x1 ((Rect.unit (s := S1x4x3x4096) ![0, 0, 0, o] S1x4x3x512.size inb).idx (ix4 (0 : Fin 1) b d n)) = _
  refine congrArg x1 (funext fun a => Fin.ext ?_)
  match a with
  | ⟨0, _⟩ => show 0 + 1 * 0 = 0; omega
  | ⟨1, _⟩ => show 0 + 1 * b.val = b.val; omega
  | ⟨2, _⟩ => show 0 + 1 * d.val = d.val; omega
  | ⟨3, _⟩ => show o + 1 * n.val = o + n.val; omega

theorem col_apply (v1 : FVec Ideal S4x3x256 .f32) (o : Nat) (h : S4x3x256.Slices ![0, o, 0] S4x1x256) (ho : o < 3)
    (b : Fin 4) (r : Fin 256) (k : Fin 512) :
    col v1 ![0, o, 0] h (ix3 b r k) = v1 (ix3 b ⟨o, ho⟩ r) := by
  unfold col
  refine (broadcastTo_apply _ _ (ix3 b r k) (ix3 b r (0 : Fin 1)) (fun a => ?_)).trans ?_
  · match a with
    | ⟨0, _⟩ => rfl
    | ⟨1, _⟩ => rfl
    | ⟨2, _⟩ => rfl
  refine (shapeCast_apply _ _ (ix3 b r (0 : Fin 1)) (ix2 b r) ?_).trans ?_
  · rw [Shape.rowMajor_val_two, Shape.rowMajor_val_three]
    show b.val * 256 + r.val = (b.val * 256 + r.val) * 1 + 0
    omega
  refine (shapeCast_apply _ _ (ix2 b r) (ix3 b (0 : Fin 1) r) ?_).trans ?_
  · rw [Shape.rowMajor_val_three, Shape.rowMajor_val_two]
    show (b.val * 1 + 0) * 256 + r.val = b.val * 256 + r.val
    omega
  exact slice3_axis1_apply o v1 h b (0 : Fin 1) r ⟨o, ho⟩ (by simp)

theorem row_apply (vb : FVec Ideal S4x3x512 .f32) (o : Nat) (h : S4x3x512.Slices ![0, o, 0] S4x1x512) (ho : o < 3)
    (b : Fin 4) (r : Fin 256) (k : Fin 512) :
    row vb ![0, o, 0] h (ix3 b r k) = vb (ix3 b ⟨o, ho⟩ k) := by
  unfold row
  refine (broadcastTo_apply _ _ (ix3 b r k) (ix3 b (0 : Fin 1) k) (fun a => ?_)).trans ?_
  · match a with
    | ⟨0, _⟩ => rfl
    | ⟨1, _⟩ => rfl
    | ⟨2, _⟩ => rfl
  refine (shapeCast_apply _ _ (ix3 b (0 : Fin 1) k) (ix2 b k) ?_).trans ?_
  · rw [Shape.rowMajor_val_two, Shape.rowMajor_val_three]
    show b.val * 512 + k.val = (b.val * 1 + 0) * 512 + k.val
    omega
  refine (shapeCast_apply _ _ (ix2 b k) (ix3 b (0 : Fin 1) k) ?_).trans ?_
  · rw [Shape.rowMajor_val_three, Shape.rowMajor_val_two]
    show (b.val * 1 + 0) * 512 + k.val = b.val * 512 + k.val
    omega
  exact slice3_axis1_apply o vb h b (0 : Fin 1) k ⟨o, ho⟩ (by simp)

/-- The squared distance between point `r` of the first block and point `n` of the second in batch `b`, the three
    squared coordinate differences added to zero in order. -/
def blockSq (x0 : Vec Ideal S1x4x3x256 .f32) (x1 : Vec Ideal S1x4x3x4096 .f32) (b : Fin 4) (r : Fin 256) (n : Fin 4096) : EReal :=
  0 + (x0 (ix4 (0 : Fin 1) b 0 r) - x1 (ix4 (0 : Fin 1) b 0 n)) * (x0 (ix4 (0 : Fin 1) b 0 r) - x1 (ix4 (0 : Fin 1) b 0 n))
    + (x0 (ix4 (0 : Fin 1) b 1 r) - x1 (ix4 (0 : Fin 1) b 1 n)) * (x0 (ix4 (0 : Fin 1) b 1 r) - x1 (ix4 (0 : Fin 1) b 1 n))
    + (x0 (ix4 (0 : Fin 1) b 2 r) - x1 (ix4 (0 : Fin 1) b 2 n)) * (x0 (ix4 (0 : Fin 1) b 2 r) - x1 (ix4 (0 : Fin 1) b 2 n))

/-- A slice's squared distances at an element. -/
theorem d2_apply (x0 : Vec Ideal S1x4x3x256 .f32) (x1 : Vec Ideal S1x4x3x4096 .f32) (o : Nat)
    (inb : ∀ a, (![0, 0, 0, o] : Fin 4 → Nat) a + S1x4x3x512.size a ≤ S1x4x3x4096.size a)
    (b : Fin 4) (r : Fin 256) (k : Fin 512) (ho : o + k.val < 4096) :
    d2 (pts x0) (slab (View.ld x1 (Rect.unit (s := S1x4x3x4096) ![0, 0, 0, o] S1x4x3x512.size inb))) (ix3 b r k)
      = blockSq x0 x1 b r ⟨o + k.val, ho⟩ := by
  unfold d2 sqd blockSq
  simp only [addf_apply, mulf_apply, subf_apply, broadcast_apply]
  rw [col_apply _ 0 _ (by omega), col_apply _ 1 _ (by omega), col_apply _ 2 _ (by omega),
    row_apply _ 0 _ (by omega), row_apply _ 1 _ (by omega), row_apply _ 2 _ (by omega)]
  rw [pts_apply, pts_apply, pts_apply, slab_apply x1 o inb b _ k ho, slab_apply x1 o inb b _ k ho, slab_apply x1 o inb b _ k ho]
  show Ideal.ofBits .f32 0x00000000#32 + _ + _ + _ = _
  rw [Ideal.ofBits_zero_f32]
  rfl

/-- The minimum along a slice at an element: the fold of `min` from ⊤ over the slice's 512 points. -/
theorem red_apply (x : FVec Ideal S4x256x512 .f32) (b : Fin 4) (r : Fin 256) :
    red x (ix2 b r) = (Finset.univ : Finset (Fin 512)).fold min ⊤ (fun k => x (ix3 b r k)) := by
  unfold red
  rw [Cert.MinimumSingle.multiReduction_minimumf_single]
  have htop : (FloatOps.ofBits .f32 0x7F800000#32 : Ideal .f32) = (⊤ : EReal) := Cert.MinimumSingle.ofBits_posInf_f32
  rw [htop]
  refine congrArg (fun z => (Finset.univ : Finset (Fin 512)).fold min ⊤ z) (funext fun k => ?_)
  show x (reduces_S4x256x512_S4x256.lift (ix2 b r) k) = x (ix3 b r k)
  refine congrArg x (funext fun a => Fin.ext ?_)
  match a with
  | ⟨0, _⟩ => rfl
  | ⟨1, _⟩ => rfl
  | ⟨2, _⟩ => rfl

end Cert.KernelIdeal.RowMin

end
-- ==== Proof.FoldSlices.lean ====
/-
  The least of a function over 4096 indices is the least of its least values over the eight consecutive runs of 512
  indices, taken in order from ⊤: both are below exactly the lower bounds of every value.
-/
import Idealize.ShloMosaic.PureOps.Ideal

namespace Cert.KernelIdeal.RowMin

/-- The least of `g` over 4096 points is the least of its least values over the eight slices of 512, taken in order from ⊤. -/
theorem fold_slices (g : Fin 4096 → EReal) :
    min (min (min (min (min (min (min (min ⊤
      ((Finset.univ : Finset (Fin 512)).fold min ⊤ fun k => g ⟨0 + k.val, by omega⟩))
      ((Finset.univ : Finset (Fin 512)).fold min ⊤ fun k => g ⟨512 + k.val, by omega⟩))
      ((Finset.univ : Finset (Fin 512)).fold min ⊤ fun k => g ⟨1024 + k.val, by omega⟩))
      ((Finset.univ : Finset (Fin 512)).fold min ⊤ fun k => g ⟨1536 + k.val, by omega⟩))
      ((Finset.univ : Finset (Fin 512)).fold min ⊤ fun k => g ⟨2048 + k.val, by omega⟩))
      ((Finset.univ : Finset (Fin 512)).fold min ⊤ fun k => g ⟨2560 + k.val, by omega⟩))
      ((Finset.univ : Finset (Fin 512)).fold min ⊤ fun k => g ⟨3072 + k.val, by omega⟩))
      ((Finset.univ : Finset (Fin 512)).fold min ⊤ fun k => g ⟨3584 + k.val, by omega⟩)
    = (Finset.univ : Finset (Fin 4096)).fold min ⊤ g := by
  refine eq_of_forall_le_iff fun z => ?_
  simp only [le_min_iff, Finset.le_fold_min, Finset.mem_univ, forall_const, le_top, true_and]
  constructor
  · rintro ⟨⟨⟨⟨⟨⟨⟨h0, h1⟩, h2⟩, h3⟩, h4⟩, h5⟩, h6⟩, h7⟩ n
    have hn := n.isLt
    by_cases c0 : n.val < 512
    · have := h0 ⟨n.val, c0⟩; simpa using this
    by_cases c1 : n.val < 1024
    · have := h1 ⟨n.val - 512, by omega⟩; rwa [show (⟨512 + (n.val - 512), _⟩ : Fin 4096) = n from Fin.ext (by show 512 + (n.val - 512) = n.val; omega)] at this
    by_cases c2 : n.val < 1536
    · have := h2 ⟨n.val - 1024, by omega⟩; rwa [show (⟨1024 + (n.val - 1024), _⟩ : Fin 4096) = n from Fin.ext (by show 1024 + (n.val - 1024) = n.val; omega)] at this
    by_cases c3 : n.val < 2048
    · have := h3 ⟨n.val - 1536, by omega⟩; rwa [show (⟨1536 + (n.val - 1536), _⟩ : Fin 4096) = n from Fin.ext (by show 1536 + (n.val - 1536) = n.val; omega)] at this
    by_cases c4 : n.val < 2560
    · have := h4 ⟨n.val - 2048, by omega⟩; rwa [show (⟨2048 + (n.val - 2048), _⟩ : Fin 4096) = n from Fin.ext (by show 2048 + (n.val - 2048) = n.val; omega)] at this
    by_cases c5 : n.val < 3072
    · have := h5 ⟨n.val - 2560, by omega⟩; rwa [show (⟨2560 + (n.val - 2560), _⟩ : Fin 4096) = n from Fin.ext (by show 2560 + (n.val - 2560) = n.val; omega)] at this
    by_cases c6 : n.val < 3584
    · have := h6 ⟨n.val - 3072, by omega⟩; rwa [show (⟨3072 + (n.val - 3072), _⟩ : Fin 4096) = n from Fin.ext (by show 3072 + (n.val - 3072) = n.val; omega)] at this
    · have := h7 ⟨n.val - 3584, by omega⟩; rwa [show (⟨3584 + (n.val - 3584), _⟩ : Fin 4096) = n from Fin.ext (by show 3584 + (n.val - 3584) = n.val; omega)] at this
  · intro h
    exact ⟨⟨⟨⟨⟨⟨⟨fun k => h _, fun k => h _⟩, fun k => h _⟩, fun k => h _⟩, fun k => h _⟩, fun k => h _⟩, fun k => h _⟩, fun k => h _⟩

end Cert.KernelIdeal.RowMin
-- ==== Proof.KernelIdealRowMinAt.lean ====
/-
  The kernel body's value at an element. The eight slices' minima fold to the least of `blockSq x0 x1 b r n` over all
  4096 points `n` of the second block; the body stores, at batch `b` and point `r`, the root of that least value
  clamped at zero.
-/
import proofs.«178926_j66022237274638_2_alg».proof.Proof.KernelIdealRowMin
import proofs.«178926_j66022237274638_2_alg».proof.Proof.FoldSlices

set_option maxRecDepth 65536

noncomputable section

namespace Cert.KernelIdeal.RowMin

open Cert.KernelIdeal Cert.KernelIdeal.Gen Cert.KernelIdeal.Frame
open Idealize.ShloMosaic Idealize.ShloMosaic.TcCoe Idealize.ShloMosaic.ValueIdx Idealize.SL.Sem

/-- The root of a clamped vector at an element. -/
theorem sqrt_max_apply (v w : FVec Ideal S4x256 .f32) (i : S4x256.Idx) : sqrt (maximumf v w) i = Ideal.sqrt (max (v i) (w i)) := rfl

/-- The f32 zero scalar is the extended real zero. -/
theorem scalar_zero : (Scalar.ofBits .f32 0x00000000#32 : Ideal .f32) = (0 : EReal) := Ideal.ofBits_zero_f32
/-- The f32 +∞ scalar is the top extended real. -/
theorem scalar_top : (Scalar.ofBits .f32 0x7F800000#32 : Ideal .f32) = (⊤ : EReal) := Cert.MinimumSingle.ofBits_posInf_f32

/-- The least squared distance at batch `b`, point `r`: over all 4096 points of the second block. -/
theorem least_apply (x0 : Vec Ideal S1x4x3x256 .f32) (x1 : Vec Ideal S1x4x3x4096 .f32) (b : Fin 4) (r : Fin 256) :
    least x0 x1 (ix2 b r) = (Finset.univ : Finset (Fin 4096)).fold min ⊤ (fun n => blockSq x0 x1 b r n) := by
  have e0 : red (d2 (pts x0) (slab (View.ld x1 rB0))) (ix2 b r)
      = (Finset.univ : Finset (Fin 512)).fold min ⊤ (fun k => blockSq x0 x1 b r ⟨0 + k.val, by have := k.isLt; omega⟩) := by
    rw [red_apply]
    exact congrArg (fun z => (Finset.univ : Finset (Fin 512)).fold min ⊤ z)
      (funext fun k => d2_apply x0 x1 0 inb_S1x4x3x4096_S1x4x3x512_0_0_0_0 b r k (by have := k.isLt; omega))
  have e1 : red (d2 (pts x0) (slab (View.ld x1 rB1))) (ix2 b r)
      = (Finset.univ : Finset (Fin 512)).fold min ⊤ (fun k => blockSq x0 x1 b r ⟨512 + k.val, by have := k.isLt; omega⟩) := by
    rw [red_apply]
    exact congrArg (fun z => (Finset.univ : Finset (Fin 512)).fold min ⊤ z)
      (funext fun k => d2_apply x0 x1 512 inb_S1x4x3x4096_S1x4x3x512_0_0_0_512 b r k (by have := k.isLt; omega))
  have e2 : red (d2 (pts x0) (slab (View.ld x1 rB2))) (ix2 b r)
      = (Finset.univ : Finset (Fin 512)).fold min ⊤ (fun k => blockSq x0 x1 b r ⟨1024 + k.val, by have := k.isLt; omega⟩) := by
    rw [red_apply]
    exact congrArg (fun z => (Finset.univ : Finset (Fin 512)).fold min ⊤ z)
      (funext fun k => d2_apply x0 x1 1024 inb_S1x4x3x4096_S1x4x3x512_0_0_0_1024 b r k (by have := k.isLt; omega))
  have e3 : red (d2 (pts x0) (slab (View.ld x1 rB3))) (ix2 b r)
      = (Finset.univ : Finset (Fin 512)).fold min ⊤ (fun k => blockSq x0 x1 b r ⟨1536 + k.val, by have := k.isLt; omega⟩) := by
    rw [red_apply]
    exact congrArg (fun z => (Finset.univ : Finset (Fin 512)).fold min ⊤ z)
      (funext fun k => d2_apply x0 x1 1536 inb_S1x4x3x4096_S1x4x3x512_0_0_0_1536 b r k (by have := k.isLt; omega))
  have e4 : red (d2 (pts x0) (slab (View.ld x1 rB4))) (ix2 b r)
      = (Finset.univ : Finset (Fin 512)).fold min ⊤ (fun k => blockSq x0 x1 b r ⟨2048 + k.val, by have := k.isLt; omega⟩) := by
    rw [red_apply]
    exact congrArg (fun z => (Finset.univ : Finset (Fin 512)).fold min ⊤ z)
      (funext fun k => d2_apply x0 x1 2048 inb_S1x4x3x4096_S1x4x3x512_0_0_0_2048 b r k (by have := k.isLt; omega))
  have e5 : red (d2 (pts x0) (slab (View.ld x1 rB5))) (ix2 b r)
      = (Finset.univ : Finset (Fin 512)).fold min ⊤ (fun k => blockSq x0 x1 b r ⟨2560 + k.val, by have := k.isLt; omega⟩) := by
    rw [red_apply]
    exact congrArg (fun z => (Finset.univ : Finset (Fin 512)).fold min ⊤ z)
      (funext fun k => d2_apply x0 x1 2560 inb_S1x4x3x4096_S1x4x3x512_0_0_0_2560 b r k (by have := k.isLt; omega))
  have e6 : red (d2 (pts x0) (slab (View.ld x1 rB6))) (ix2 b r)
      = (Finset.univ : Finset (Fin 512)).fold min ⊤ (fun k => blockSq x0 x1 b r ⟨3072 + k.val, by have := k.isLt; omega⟩) := by
    rw [red_apply]
    exact congrArg (fun z => (Finset.univ : Finset (Fin 512)).fold min ⊤ z)
      (funext fun k => d2_apply x0 x1 3072 inb_S1x4x3x4096_S1x4x3x512_0_0_0_3072 b r k (by have := k.isLt; omega))
  have e7 : red (d2 (pts x0) (slab (View.ld x1 rB7))) (ix2 b r)
      = (Finset.univ : Finset (Fin 512)).fold min ⊤ (fun k => blockSq x0 x1 b r ⟨3584 + k.val, by have := k.isLt; omega⟩) := by
    rw [red_apply]
    exact congrArg (fun z => (Finset.univ : Finset (Fin 512)).fold min ⊤ z)
      (funext fun k => d2_apply x0 x1 3584 inb_S1x4x3x4096_S1x4x3x512_0_0_0_3584 b r k (by have := k.isLt; omega))
  unfold least
  simp only [minimumf_apply, broadcast_apply]
  rw [e0, e1, e2, e3, e4, e5, e6, e7, scalar_top]
  exact fold_slices (fun n => blockSq x0 x1 b r n)

/-- The closed form at batch `b` and point `r` of its block. -/
theorem closed_apply (x0 : Vec Ideal S1x4x3x256 .f32) (x1 : Vec Ideal S1x4x3x4096 .f32) (u : Fin 1) (b : Fin 4) (r : Fin 256) :
    closed x0 x1 (ix3 u b r)
      = Ideal.sqrt (max ((Finset.univ : Finset (Fin 4096)).fold min ⊤ (fun n => blockSq x0 x1 b r n)) 0) := by
  unfold closed
  refine (shapeCast_ab_1ab_apply _ _ u b r).trans ?_
  rw [sqrt_max_apply, least_apply, broadcast_apply, scalar_zero]

/-- The value the body stores, at batch `b` and point `r` of its block. -/
theorem rowMin_apply (x0 : Vec Ideal S1x4x3x256 .f32) (x1 : Vec Ideal S1x4x3x4096 .f32) (u : Fin 1) (b : Fin 4) (r : Fin 256) :
    rowMin x0 x1 (ix3 u b r)
      = Ideal.sqrt (max ((Finset.univ : Finset (Fin 4096)).fold min ⊤ (fun n => blockSq x0 x1 b r n)) 0) :=
  (congrFun (rowMin_eq_closed x0 x1) (ix3 u b r)).trans (closed_apply x0 x1 u b r)

end Cert.KernelIdeal.RowMin

end
-- ==== Proof.KernelIdealStacked.lean ====
/-
  The function of the two stacked operands the launch's output array ends holding: entry (p, b, μ) is the root of the
  clamped least squared distance from point μ of the first operand's slab (p, b) to the 4096 points of the second
  operand's slab (p, b), the squared distance summed coordinate by coordinate from zero.
-/
import proofs.«178926_j66022237274638_2_alg».proof.Proof.Gen.KernelIdeal
import Idealize.ShloMosaic.PureOps.Ideal
import Idealize.ShloMosaic.Lib.ValueIdx

noncomputable section

namespace Cert.KernelIdeal.Output

open Cert.KernelIdeal Idealize.ShloMosaic Idealize.ShloMosaic.ValueIdx

/-! ## The whole-array function -/

/-- Coordinate `d` of the point an output entry is about: slab and batch of the entry, its point. -/
def atPoint (i : S4x4x4096.Idx) (d : Fin 3) : S4x4x3x4096.Idx :=
  ix4 (⟨(i 0).val, (i 0).isLt⟩ : Fin 4) (⟨(i 1).val, (i 1).isLt⟩ : Fin 4) d (⟨(i 2).val, (i 2).isLt⟩ : Fin 4096)
/-- Coordinate `d` of point `n` of the other cloud, in the entry's slab and batch. -/
def atOther (i : S4x4x4096.Idx) (d : Fin 3) (n : Fin 4096) : S4x4x3x4096.Idx :=
  ix4 (⟨(i 0).val, (i 0).isLt⟩ : Fin 4) (⟨(i 1).val, (i 1).isLt⟩ : Fin 4) d n

/-- The squared distance from an entry's point to point `n` of the other cloud, over the stacked operands. -/
def pairSq (A B : S4x4x3x4096.Idx → EReal) (i : S4x4x4096.Idx) (n : Fin 4096) : EReal :=
  0 + (A (atPoint i 0) - B (atOther i 0 n)) * (A (atPoint i 0) - B (atOther i 0 n))
    + (A (atPoint i 1) - B (atOther i 1 n)) * (A (atPoint i 1) - B (atOther i 1 n))
    + (A (atPoint i 2) - B (atOther i 2 n)) * (A (atPoint i 2) - B (atOther i 2 n))

/-- What the output array ends holding: at each entry the root of the clamped least squared distance. -/
def nearestStacked (A B : S4x4x3x4096.Idx → EReal) : S4x4x4096.Idx → EReal := fun i =>
  Ideal.sqrt (max ((Finset.univ : Finset (Fin 4096)).fold min ⊤ fun n => pairSq A B i n) 0)

end Cert.KernelIdeal.Output

end
-- ==== Proof.KernelIdealOutput.lean ====
/-
  The launch's output array after the run, as one function of the two stacked operands. At grid point (p, mt) the body
  receives rows [256·mt, 256·mt + 256) of pair `p`'s first cloud and all of pair `p`'s second cloud, and writes back
  rows [256·mt, 256·mt + 256) of slab `p` of the output. Entry (p, b, μ) of what it writes is the root of the clamped
  least squared distance from point μ of the first operand's slab (p, b) to the 4096 points of the second operand's
  slab (p, b). The 64 blocks tile the output array, so the array ends holding that function everywhere.
-/
import proofs.«178926_j66022237274638_2_alg».proof.Proof.KernelIdealRun
import proofs.«178926_j66022237274638_2_alg».proof.Proof.KernelIdealRowMinAt
import proofs.«178926_j66022237274638_2_alg».proof.Proof.KernelIdealStacked
import Idealize.ShloMosaic.Lib.Pipeline.Value

set_option maxRecDepth 16384

noncomputable section

namespace Cert.KernelIdeal.Output

open Cert.KernelIdeal Cert.KernelIdeal.Gen Cert.KernelIdeal.Frame Cert.KernelIdeal.RowMin
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The index maps, decided over the grid -/

theorem hz3 : (![0, 0, 0] : Fin 3 → Nat) = fun _ => 0 := funext fun a => by fin_cases a <;> rfl

/-- Both input blocks sit in the slab the output block sits in; the first moves with the output block along the
    points, the second is the whole slab. -/
theorem idx_facts : ∀ t : Fin cfg0.N,
    win0_0.index t (0 : Fin 4) = win0_2.index t (0 : Fin 3) ∧ win0_0.index t (1 : Fin 4) = 0
    ∧ win0_0.index t (2 : Fin 4) = 0 ∧ win0_0.index t (3 : Fin 4) = win0_2.index t (2 : Fin 3)
    ∧ win0_1.index t (0 : Fin 4) = win0_2.index t (0 : Fin 3) ∧ win0_1.index t (1 : Fin 4) = 0
    ∧ win0_1.index t (2 : Fin 4) = 0 ∧ win0_1.index t (3 : Fin 4) = 0
    ∧ win0_2.index t (1 : Fin 3) = 0 ∧ win0_2.index t (0 : Fin 3) ≤ 3 ∧ win0_2.index t (2 : Fin 3) ≤ 15 :=
  (by decide +kernel : ∀ t : Fin grid0.N, _)

/-- Every block of the output array is some grid point's. -/
theorem idx_onto : ∀ (q0 : Fin 4) (q2 : Fin 16), ∃ t : Fin cfg0.N, win0_2.index t = ![q0.val, 0, q2.val] :=
  (by decide +kernel : ∀ (q0 : Fin 4) (q2 : Fin 16), ∃ t : Fin grid0.N, win0_2.index t = ![q0.val, 0, q2.val])

/-! ## What a grid point writes back -/

/-- The body's value at any index of its block, by the index's coordinates. -/
theorem rowMin_at (x0 : Vec Ideal S1x4x3x256 .f32) (x1 : Vec Ideal S1x4x3x4096 .f32) (y : S1x4x256.Idx) :
    rowMin x0 x1 y = Ideal.sqrt (max ((Finset.univ : Finset (Fin 4096)).fold min ⊤
      (fun n => blockSq x0 x1 (⟨(y 1).val, (y 1).isLt⟩ : Fin 4) (⟨(y 2).val, (y 2).isLt⟩ : Fin 256) n)) 0) := by
  have h := rowMin_apply x0 x1 (⟨(y 0).val, (y 0).isLt⟩ : Fin 1) (⟨(y 1).val, (y 1).isLt⟩ : Fin 4) (⟨(y 2).val, (y 2).isLt⟩ : Fin 256)
  rw [show ix3 (⟨(y 0).val, (y 0).isLt⟩ : Fin 1) (⟨(y 1).val, (y 1).isLt⟩ : Fin 4) (⟨(y 2).val, (y 2).isLt⟩ : Fin 256) = y from
    funext fun a => by match a with | ⟨0, _⟩ => rfl | ⟨1, _⟩ => rfl | ⟨2, _⟩ => rfl] at h
  exact h

/-- WHAT POINT `t` WRITES BACK is block `t` of `nearestStacked` of the two operands as the launch finds them. -/
theorem flushed_eq (c : Dev nD) (t : Fin cfg0.N) :
    (dats m 0 c).flushed 2 t = ((cfg0.win 2).blk t).view.read (Elt Ideal) (nearestStacked (V m c main_v8) (V m c main_v17)) := by
  show (cfg0.win 2).cut (grid0.coords t) ((dats m 0 c).after 2 t) = _
  rw [after0_2]
  unfold out0_2
  rw [View.canon_unit_zero hz3]
  obtain ⟨e00, e01, e02, e03, e10, e11, e12, e13, e21, h20, h22⟩ := idx_facts t
  refine funext fun (y : S1x4x256.Idx) => ?_
  refine (rowMin_at (iblk m c 0 t) (iblk m c 1 t) y).trans ?_
  show _ = nearestStacked (V m c main_v8) (V m c main_v17) (((cfg0.win 2).blk t).view.emb y)
  unfold nearestStacked
  refine congrArg (fun z => Ideal.sqrt (max (Finset.fold min ⊤ z Finset.univ) 0)) (funext fun n => ?_)
  have hy0 : (y 0).val < 1 := (y 0).isLt
  have hA : ∀ d : Fin 3, iblk m c 0 t (ix4 (0 : Fin 1) (⟨(y 1).val, (y 1).isLt⟩ : Fin 4) d (⟨(y 2).val, (y 2).isLt⟩ : Fin 256))
      = V m c main_v8 (atPoint (((cfg0.win 2).blk t).view.emb y) d) := fun d => by
    show V m c main_v8 (((cfg0.win 0).blk t).view.emb (ix4 (0 : Fin 1) (⟨(y 1).val, (y 1).isLt⟩ : Fin 4) d (⟨(y 2).val, (y 2).isLt⟩ : Fin 256))) = _
    refine congrArg _ (funext fun a => Fin.ext ?_)
    match a with
    | ⟨0, _⟩ => show win0_0.index t (0 : Fin 4) * 1 + 1 * 0 = win0_2.index t (0 : Fin 3) * 1 + 1 * (y 0).val; omega
    | ⟨1, _⟩ => show win0_0.index t (1 : Fin 4) * 4 + 1 * (y 1).val = win0_2.index t (1 : Fin 3) * 4 + 1 * (y 1).val; omega
    | ⟨2, _⟩ => show win0_0.index t (2 : Fin 4) * 3 + 1 * d.val = d.val; omega
    | ⟨3, _⟩ => show win0_0.index t (3 : Fin 4) * 256 + 1 * (y 2).val = win0_2.index t (2 : Fin 3) * 256 + 1 * (y 2).val; omega
  have hB : ∀ d : Fin 3, iblk m c 1 t (ix4 (0 : Fin 1) (⟨(y 1).val, (y 1).isLt⟩ : Fin 4) d n)
      = V m c main_v17 (atOther (((cfg0.win 2).blk t).view.emb y) d n) := fun d => by
    show V m c main_v17 (((cfg0.win 1).blk t).view.emb (ix4 (0 : Fin 1) (⟨(y 1).val, (y 1).isLt⟩ : Fin 4) d n)) = _
    refine congrArg _ (funext fun a => Fin.ext ?_)
    match a with
    | ⟨0, _⟩ => show win0_1.index t (0 : Fin 4) * 1 + 1 * 0 = win0_2.index t (0 : Fin 3) * 1 + 1 * (y 0).val; omega
    | ⟨1, _⟩ => show win0_1.index t (1 : Fin 4) * 4 + 1 * (y 1).val = win0_2.index t (1 : Fin 3) * 4 + 1 * (y 1).val; omega
    | ⟨2, _⟩ => show win0_1.index t (2 : Fin 4) * 3 + 1 * d.val = d.val; omega
    | ⟨3, _⟩ => show win0_1.index t (3 : Fin 4) * 4096 + 1 * n.val = n.val; omega
  unfold blockSq pairSq
  rw [hA 0, hA 1, hA 2, hB 0, hB 1, hB 2]

/-! ## The blocks tile the output array -/

/-- An index of the array is in point `t`'s block iff each coordinate is in the block's range on its axis. -/
theorem mem_blk (t : Fin cfg0.N) (i : S4x4x4096.Idx) :
    i ∈ ((cfg0.win 2).blk t).view.set ↔ ∀ a : Fin 3, win0_2.index t a * S1x4x256.size a ≤ (i a).val ∧ (i a).val < win0_2.index t a * S1x4x256.size a + S1x4x256.size a := by
  show i ∈ ((View.whole main_v18).slice (win0_2.rect t)).set ↔ _
  rw [View.set_slice_whole, Rect.mem_set_unit]
  exact Iff.rfl

/-- Every index of the output array is in the block of the point at its slab and its run of 256 rows. -/
theorem cover (i : S4x4x4096.Idx) : ∃ t : Fin cfg0.N, (cfg0.win 2).flush t = true ∧ i ∈ ((cfg0.win 2).blk t).view.set := by
  have hi0 : (i 0).val < 4 := (i 0).isLt
  have hi1 : (i 1).val < 4 := (i 1).isLt
  have hi2 : (i 2).val < 4096 := (i 2).isLt
  obtain ⟨t, ht⟩ := idx_onto ⟨(i 0).val, hi0⟩ ⟨(i 2).val / 256, by omega⟩
  have q0 : win0_2.index t (0 : Fin 3) = (i 0).val := congrFun ht 0
  have q1 : win0_2.index t (1 : Fin 3) = 0 := congrFun ht 1
  have q2 : win0_2.index t (2 : Fin 3) = (i 2).val / 256 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 4 ≤ (i 1).val ∧ (i 1).val < win0_2.index t (1 : Fin 3) * 4 + 4; omega
  | ⟨2, _⟩ => show win0_2.index t (2 : Fin 3) * 256 ≤ (i 2).val ∧ (i 2).val < win0_2.index t (2 : Fin 3) * 256 + 256; omega

/-- THE OUTPUT ARRAY after the run. -/
theorem final (c : Dev nD) : (dats m 0 c).arrAt 2 cfg0.N = nearestStacked (V m c main_v8) (V m c main_v17) :=
  (dats m 0 c).arrAt_eq_of_cover 2 _ (fun t _ => flushed_eq m c t) cover

end Cert.KernelIdeal.Output

end
-- ==== Proof.KernelIdealStack.lean ====
/-
  The stacked clouds, read at an element.

  Each operand of the kernel call is four clouds laid along a new leading axis: every [4, 4096, 3] cloud is
  transposed to [4, 3, 4096] (coordinate axis before point axis), given a leading axis of extent one, and the four are
  concatenated along that axis into [4, 4, 3, 4096]. So entry (p, b, d, n) of the stack is coordinate d of point n in
  batch b of the p-th cloud.
-/
import proofs.«178926_j66022237274638_2_alg».proof.Proof.Gen.KernelIdeal
import Idealize.ShloMosaic.Lib.Pipeline.Value
import Idealize.ShloMosaic.Lib.ValueIdx
import Idealize.ShloMosaic.Lib.ValueLayout

noncomputable section

namespace Cert.KernelIdeal.Stack

open Cert.KernelIdeal Cert.KernelIdeal.Gen
open Idealize.ShloMosaic Idealize.ShloMosaic.ValueIdx

/-- Four clouds, each transposed and given a leading unit axis, laid end to end along that axis. -/
def stack (a0 a1 a2 a3 : S4x4096x3.Idx → EReal) : S4x4x3x4096.Idx → EReal :=
  concatenate S4x4x3x4096 0
    [⟨S1x4x3x4096, broadcastInDim S1x4x3x4096 ![1, 2, 3] bcast_S4x3x4096_S1x4x3x4096_1_2_3
        (transpose S4x3x4096 [0, 2, 1] a0 transposes_S4x4096x3_S4x3x4096_0_2_1)⟩,
     ⟨S1x4x3x4096, broadcastInDim S1x4x3x4096 ![1, 2, 3] bcast_S4x3x4096_S1x4x3x4096_1_2_3
        (transpose S4x3x4096 [0, 2, 1] a1 transposes_S4x4096x3_S4x3x4096_0_2_1)⟩,
     ⟨S1x4x3x4096, broadcastInDim S1x4x3x4096 ![1, 2, 3] bcast_S4x3x4096_S1x4x3x4096_1_2_3
        (transpose S4x3x4096 [0, 2, 1] a2 transposes_S4x4096x3_S4x3x4096_0_2_1)⟩,
     ⟨S1x4x3x4096, broadcastInDim S1x4x3x4096 ![1, 2, 3] bcast_S4x3x4096_S1x4x3x4096_1_2_3
        (transpose S4x3x4096 [0, 2, 1] a3 transposes_S4x4096x3_S4x3x4096_0_2_1)⟩]
    concatenates_S1x4x3x4096_S1x4x3x4096_S1x4x3x4096_S1x4x3x4096_S4x4x3x4096_d0

/-- One slab: a cloud transposed and given a leading unit axis reads, at (0, b, d, n), the cloud at (b, n, d). -/
theorem slab_apply (a : S4x4096x3.Idx → EReal) (b : Fin 4) (d : Fin 3) (n : Fin 4096) :
    broadcastInDim S1x4x3x4096 ![1, 2, 3] bcast_S4x3x4096_S1x4x3x4096_1_2_3
        (transpose S4x3x4096 [0, 2, 1] a transposes_S4x4096x3_S4x3x4096_0_2_1) (ix4 (0 : Fin 1) b d n)
      = a (ix3 b n d) := by
  refine (broadcastInDim_apply _ bcast_S4x3x4096_S1x4x3x4096_1_2_3 _ (ix4 (0 : Fin 1) b d n) (ix3 b d n)
    (fun c => match c with
      | ⟨0, _⟩ => rfl
      | ⟨1, _⟩ => rfl
      | ⟨2, _⟩ => rfl)).trans ?_
  exact transpose_ix3_021_apply a transposes_S4x4096x3_S4x3x4096_0_2_1 b d n

/-- Slab 0 of the stack is the first cloud, transposed. -/
theorem stack_apply0 (a0 a1 a2 a3 : S4x4096x3.Idx → EReal) (b : Fin 4) (d : Fin 3) (n : Fin 4096) :
    stack a0 a1 a2 a3 (ix4 (0 : Fin 4) b d n) = a0 (ix3 b n d) := by
  unfold stack
  refine (concatenate_apply_piece (0 : Fin S4x4x3x4096.rank)
    [⟨S1x4x3x4096, broadcastInDim S1x4x3x4096 ![1, 2, 3] bcast_S4x3x4096_S1x4x3x4096_1_2_3
        (transpose S4x3x4096 [0, 2, 1] a0 transposes_S4x4096x3_S4x3x4096_0_2_1)⟩,
     ⟨S1x4x3x4096, broadcastInDim S1x4x3x4096 ![1, 2, 3] bcast_S4x3x4096_S1x4x3x4096_1_2_3
        (transpose S4x3x4096 [0, 2, 1] a1 transposes_S4x4096x3_S4x3x4096_0_2_1)⟩,
     ⟨S1x4x3x4096, broadcastInDim S1x4x3x4096 ![1, 2, 3] bcast_S4x3x4096_S1x4x3x4096_1_2_3
        (transpose S4x3x4096 [0, 2, 1] a2 transposes_S4x4096x3_S4x3x4096_0_2_1)⟩,
     ⟨S1x4x3x4096, broadcastInDim S1x4x3x4096 ![1, 2, 3] bcast_S4x3x4096_S1x4x3x4096_1_2_3
        (transpose S4x3x4096 [0, 2, 1] a3 transposes_S4x4096x3_S4x3x4096_0_2_1)⟩]
    concatenates_S1x4x3x4096_S1x4x3x4096_S1x4x3x4096_S1x4x3x4096_S4x4x3x4096_d0 (ix4 (0 : Fin 4) b d n)
    0 (show (0 : Nat) < 4 by decide) S1x4x3x4096 _ rfl rfl 0 rfl (ix4 (0 : Fin 1) b d n)
    (fun c hc => match c with
      | ⟨0, _⟩ => absurd rfl hc
      | ⟨1, _⟩ => rfl
      | ⟨2, _⟩ => rfl
      | ⟨3, _⟩ => rfl) rfl).trans ?_
  exact slab_apply a0 b d n

/-- Slab 1 of the stack is the second cloud, transposed. -/
theorem stack_apply1 (a0 a1 a2 a3 : S4x4096x3.Idx → EReal) (b : Fin 4) (d : Fin 3) (n : Fin 4096) :
    stack a0 a1 a2 a3 (ix4 (1 : Fin 4) b d n) = a1 (ix3 b n d) := by
  unfold stack
  refine (concatenate_apply_piece (0 : Fin S4x4x3x4096.rank)
    [⟨S1x4x3x4096, broadcastInDim S1x4x3x4096 ![1, 2, 3] bcast_S4x3x4096_S1x4x3x4096_1_2_3
        (transpose S4x3x4096 [0, 2, 1] a0 transposes_S4x4096x3_S4x3x4096_0_2_1)⟩,
     ⟨S1x4x3x4096, broadcastInDim S1x4x3x4096 ![1, 2, 3] bcast_S4x3x4096_S1x4x3x4096_1_2_3
        (transpose S4x3x4096 [0, 2, 1] a1 transposes_S4x4096x3_S4x3x4096_0_2_1)⟩,
     ⟨S1x4x3x4096, broadcastInDim S1x4x3x4096 ![1, 2, 3] bcast_S4x3x4096_S1x4x3x4096_1_2_3
        (transpose S4x3x4096 [0, 2, 1] a2 transposes_S4x4096x3_S4x3x4096_0_2_1)⟩,
     ⟨S1x4x3x4096, broadcastInDim S1x4x3x4096 ![1, 2, 3] bcast_S4x3x4096_S1x4x3x4096_1_2_3
        (transpose S4x3x4096 [0, 2, 1] a3 transposes_S4x4096x3_S4x3x4096_0_2_1)⟩]
    concatenates_S1x4x3x4096_S1x4x3x4096_S1x4x3x4096_S1x4x3x4096_S4x4x3x4096_d0 (ix4 (1 : Fin 4) b d n)
    1 (show (1 : Nat) < 4 by decide) S1x4x3x4096 _ rfl rfl 1 rfl (ix4 (0 : Fin 1) b d n)
    (fun c hc => match c with
      | ⟨0, _⟩ => absurd rfl hc
      | ⟨1, _⟩ => rfl
      | ⟨2, _⟩ => rfl
      | ⟨3, _⟩ => rfl) rfl).trans ?_
  exact slab_apply a1 b d n

/-- Slab 2 of the stack is the third cloud, transposed. -/
theorem stack_apply2 (a0 a1 a2 a3 : S4x4096x3.Idx → EReal) (b : Fin 4) (d : Fin 3) (n : Fin 4096) :
    stack a0 a1 a2 a3 (ix4 (2 : Fin 4) b d n) = a2 (ix3 b n d) := by
  unfold stack
  refine (concatenate_apply_piece (0 : Fin S4x4x3x4096.rank)
    [⟨S1x4x3x4096, broadcastInDim S1x4x3x4096 ![1, 2, 3] bcast_S4x3x4096_S1x4x3x4096_1_2_3
        (transpose S4x3x4096 [0, 2, 1] a0 transposes_S4x4096x3_S4x3x4096_0_2_1)⟩,
     ⟨S1x4x3x4096, broadcastInDim S1x4x3x4096 ![1, 2, 3] bcast_S4x3x4096_S1x4x3x4096_1_2_3
        (transpose S4x3x4096 [0, 2, 1] a1 transposes_S4x4096x3_S4x3x4096_0_2_1)⟩,
     ⟨S1x4x3x4096, broadcastInDim S1x4x3x4096 ![1, 2, 3] bcast_S4x3x4096_S1x4x3x4096_1_2_3
        (transpose S4x3x4096 [0, 2, 1] a2 transposes_S4x4096x3_S4x3x4096_0_2_1)⟩,
     ⟨S1x4x3x4096, broadcastInDim S1x4x3x4096 ![1, 2, 3] bcast_S4x3x4096_S1x4x3x4096_1_2_3
        (transpose S4x3x4096 [0, 2, 1] a3 transposes_S4x4096x3_S4x3x4096_0_2_1)⟩]
    concatenates_S1x4x3x4096_S1x4x3x4096_S1x4x3x4096_S1x4x3x4096_S4x4x3x4096_d0 (ix4 (2 : Fin 4) b d n)
    2 (show (2 : Nat) < 4 by decide) S1x4x3x4096 _ rfl rfl 2 rfl (ix4 (0 : Fin 1) b d n)
    (fun c hc => match c with
      | ⟨0, _⟩ => absurd rfl hc
      | ⟨1, _⟩ => rfl
      | ⟨2, _⟩ => rfl
      | ⟨3, _⟩ => rfl) rfl).trans ?_
  exact slab_apply a2 b d n

/-- Slab 3 of the stack is the fourth cloud, transposed. -/
theorem stack_apply3 (a0 a1 a2 a3 : S4x4096x3.Idx → EReal) (b : Fin 4) (d : Fin 3) (n : Fin 4096) :
    stack a0 a1 a2 a3 (ix4 (3 : Fin 4) b d n) = a3 (ix3 b n d) := by
  unfold stack
  refine (concatenate_apply_piece (0 : Fin S4x4x3x4096.rank)
    [⟨S1x4x3x4096, broadcastInDim S1x4x3x4096 ![1, 2, 3] bcast_S4x3x4096_S1x4x3x4096_1_2_3
        (transpose S4x3x4096 [0, 2, 1] a0 transposes_S4x4096x3_S4x3x4096_0_2_1)⟩,
     ⟨S1x4x3x4096, broadcastInDim S1x4x3x4096 ![1, 2, 3] bcast_S4x3x4096_S1x4x3x4096_1_2_3
        (transpose S4x3x4096 [0, 2, 1] a1 transposes_S4x4096x3_S4x3x4096_0_2_1)⟩,
     ⟨S1x4x3x4096, broadcastInDim S1x4x3x4096 ![1, 2, 3] bcast_S4x3x4096_S1x4x3x4096_1_2_3
        (transpose S4x3x4096 [0, 2, 1] a2 transposes_S4x4096x3_S4x3x4096_0_2_1)⟩,
     ⟨S1x4x3x4096, broadcastInDim S1x4x3x4096 ![1, 2, 3] bcast_S4x3x4096_S1x4x3x4096_1_2_3
        (transpose S4x3x4096 [0, 2, 1] a3 transposes_S4x4096x3_S4x3x4096_0_2_1)⟩]
    concatenates_S1x4x3x4096_S1x4x3x4096_S1x4x3x4096_S1x4x3x4096_S4x4x3x4096_d0 (ix4 (3 : Fin 4) b d n)
    3 (show (3 : Nat) < 4 by decide) S1x4x3x4096 _ rfl rfl 3 rfl (ix4 (0 : Fin 1) b d n)
    (fun c hc => match c with
      | ⟨0, _⟩ => absurd rfl hc
      | ⟨1, _⟩ => rfl
      | ⟨2, _⟩ => rfl
      | ⟨3, _⟩ => rfl) rfl).trans ?_
  exact slab_apply a3 b d n

/-- Slab `p` of the stack is the `p`-th cloud, transposed. -/
theorem stack_apply (a0 a1 a2 a3 : S4x4096x3.Idx → EReal) (p : Fin 4) (b : Fin 4) (d : Fin 3) (n : Fin 4096) :
    stack a0 a1 a2 a3 (ix4 p b d n) = (![a0, a1, a2, a3] p) (ix3 b n d) := by
  fin_cases p
  · exact stack_apply0 a0 a1 a2 a3 b d n
  · exact stack_apply1 a0 a1 a2 a3 b d n
  · exact stack_apply2 a0 a1 a2 a3 b d n
  · exact stack_apply3 a0 a1 a2 a3 b d n

end Cert.KernelIdeal.Stack

end
-- ==== Proof.KernelIdealHost.lean ====
/-
  The kernel program's host operations as functions of what they read. Before the launch: each operand of the launch is
  the stack of four transposed clouds — the first operand stacks the clouds (0, 1, 0, 1), the second the clouds
  (1, 0, 2, 3). After the launch: the result is `lossOf` of the four slabs of the launch's output array — each slab's sum
  over its 4 × 4096 entries from zero, divided by 16384, the four quotients added in order.
-/
import proofs.«178926_j66022237274638_2_alg».proof.Proof.Gen.KernelIdeal.Launch
import proofs.«178926_j66022237274638_2_alg».proof.Proof.KernelIdealStack
import Idealize.ShloMosaic.Lib.StableHlo.Run
import Idealize.ShloMosaic.PureOps.Ideal

set_option maxRecDepth 16384

noncomputable section

namespace Cert.KernelIdeal.Host

open Cert.KernelIdeal Cert.KernelIdeal.Gen Cert.KernelIdeal.Stack
open Idealize.ShloMosaic Idealize.ShloMosaic.TcCoe Idealize.ShloMosaic.StableHlo Idealize.SL.Sem

/-- Slab `p` of the launch's output array, as a 4 × 4096 matrix. -/
def sl (O : FVec Ideal S4x4x4096 .f32) (p : Nat) (h : S4x4x4096.Slices ![p, 0, 0] S1x4x4096) : FVec Ideal S4x4096 .f32 :=
  shapeCast S4x4096 (extractStridedSlice S1x4x4096 ![p, 0, 0] O h) shapeCasts_S1x4x4096_S4x4096

/-- The mean of a 4 × 4096 matrix as the host takes it: the sum of its entries from zero, divided by 16384. -/
def mean (a : FVec Ideal S4x4096 .f32) : FVec Ideal S_ .f32 :=
  Host.divf (F := Ideal) (Host.reduceAdd (F := Ideal) a (constant (F := Ideal) S_ .f32 0x00000000#32) reducesTo_S4x4096_S_d0_1 h_S_) (constant (F := Ideal) S_ .f32 0x46800000#32)

/-- The loss from the four matrices of nearest distances: their means added in order. -/
def lossOf (a b c d : FVec Ideal S4x4096 .f32) : FVec Ideal S_ .f32 :=
  addf (F := Ideal) (addf (F := Ideal) (addf (F := Ideal) (mean a) (mean b)) (mean c)) (mean d)

set_option maxHeartbeats 2000000 in
/-- The host operations after the launch compute the loss of the output array's four slabs. -/
theorem tail_eq (W : Valuation τ sig (Elt Ideal)) :
    StableHlo.after hostOps1 W (Proc.devRef .tc main_v37)
      = lossOf (sl (W (Proc.devRef .tc main_v18)) 0 slices_S4x4x4096_S1x4x4096_0_0_0) (sl (W (Proc.devRef .tc main_v18)) 1 slices_S4x4x4096_S1x4x4096_1_0_0)
          (sl (W (Proc.devRef .tc main_v18)) 2 slices_S4x4x4096_S1x4x4096_2_0_0) (sl (W (Proc.devRef .tc main_v18)) 3 slices_S4x4x4096_S1x4x4096_3_0_0) := by
  after_results_simp
  rfl

set_option maxHeartbeats 2000000 in
/-- The launch's first operand is the stack of the transposed clouds 0, 1, 0, 1. -/
theorem prefix8 (W : Valuation τ sig (Elt Ideal)) :
    StableHlo.after hostOps0 W (Proc.devRef .tc main_v8)
      = stack (W (Proc.devRef .tc main_arg0)) (W (Proc.devRef .tc main_arg1)) (W (Proc.devRef .tc main_arg0)) (W (Proc.devRef .tc main_arg1)) := by
  simp (disch := decide) only [after_cons, after_nil, nullary_result', unary_result', binary_result', reshape_result', nary4_result', nullary_result_ne', unary_result_ne', binary_result_ne', reshape_result_ne', nary_result_ne']
  rfl

set_option maxHeartbeats 2000000 in
/-- The launch's second operand is the stack of the transposed clouds 1, 0, 2, 3. -/
theorem prefix17 (W : Valuation τ sig (Elt Ideal)) :
    StableHlo.after hostOps0 W (Proc.devRef .tc main_v17)
      = stack (W (Proc.devRef .tc main_arg1)) (W (Proc.devRef .tc main_arg0)) (W (Proc.devRef .tc main_arg2)) (W (Proc.devRef .tc main_arg3)) := by
  simp (disch := decide) only [after_cons, after_nil, nullary_result', unary_result', binary_result', reshape_result', nary4_result', nullary_result_ne', unary_result_ne', binary_result_ne', reshape_result_ne', nary_result_ne']
  rfl

/-- One stretch of host operations flattened is itself. -/
theorem flatten_one {α : Type} (l : List α) : List.flatten [l] = l := by simp

end Cert.KernelIdeal.Host

end
-- ==== Proof.Spec.lean ====
/-
  The specification both programs meet. A cloud is four batches of 4096 points in space. For two clouds `A`, `B`
  and a point `m` of `A` in batch `b`, `sqDist A B b m n` is the squared Euclidean distance to point `n` of `B`,
  summed coordinate by coordinate from zero, and `nearest A B` is the distance to the nearest point of `B`: the
  least of those 4096 squared distances (a fold of `min` from `⊤`), clamped below at zero, then its square root.
  The chamfer loss is the sum of four means of such arrays.
-/
import Idealize.ShloMosaic.PureOps.Ideal
import Idealize.ShloMosaic.Lib.ValueIdx

noncomputable section

namespace Cert.Chamfer

open Idealize.ShloMosaic Idealize.ShloMosaic.ValueIdx

/-- Four batches of 4096 points with three coordinates each, as extended reals. -/
abbrev Cloud : Type := (⟨3, ![4, 4096, 3]⟩ : Shape).Idx → EReal

/-- The squared distance between point `m` of `A` and point `n` of `B` in batch `b`: the three squared coordinate
    differences added to zero in order. -/
def sqDist (A B : Cloud) (b : Fin 4) (m n : Fin 4096) : EReal :=
  0 + (A (ix3 b m 0) - B (ix3 b n 0)) * (A (ix3 b m 0) - B (ix3 b n 0))
    + (A (ix3 b m 1) - B (ix3 b n 1)) * (A (ix3 b m 1) - B (ix3 b n 1))
    + (A (ix3 b m 2) - B (ix3 b n 2)) * (A (ix3 b m 2) - B (ix3 b n 2))

/-- The distance from each point of `A` to the nearest point of `B`. -/
def nearest (A B : Cloud) : (⟨2, ![4, 4096]⟩ : Shape).Idx → EReal := fun j =>
  Ideal.sqrt (max ((Finset.univ : Finset (Fin 4096)).fold min ⊤ fun n => sqDist A B (j 0) (j 1) n) 0)

end Cert.Chamfer

end
-- ==== Proof.KernelIdealSlabs.lean ====
/-
  The output array, slab by slab.

  Entry (p, b, μ) of the output array is the nearest-point distance computed over the stacked operands: from point μ
  of slab (p, b) of the first operand to the points of slab (p, b) of the second. Slab p of a stack is the p-th cloud
  transposed, so that entry is the distance from point μ of the p-th cloud of the first four, in batch b, to the
  nearest point of the p-th cloud of the second four — the specification's nearest-point distance for that pair. The
  host then takes slab p of the output (a slice of extent one along the leading axis, with that axis dropped), which as
  a whole [4, 4096] array is the nearest-point array of the p-th pair.
-/
import proofs.«178926_j66022237274638_2_alg».proof.Proof.KernelIdealStacked
import proofs.«178926_j66022237274638_2_alg».proof.Proof.KernelIdealStack
import proofs.«178926_j66022237274638_2_alg».proof.Proof.Spec
import Idealize.ShloMosaic.Lib.Pipeline.Value
import Idealize.ShloMosaic.Lib.ValueIdx
import Idealize.ShloMosaic.Lib.ValueLayout

noncomputable section

namespace Cert.KernelIdeal.Output

open Cert.KernelIdeal Cert.KernelIdeal.Gen
open Idealize.ShloMosaic Idealize.ShloMosaic.ValueIdx

/-- Entry (p, b, μ) over two stacks of four clouds: the nearest-point distance of the p-th pair at (b, μ). -/
theorem nearestStacked_slab (a0 a1 a2 a3 b0 b1 b2 b3 : S4x4096x3.Idx → EReal) (p b : Fin 4) (μ : Fin 4096) :
    nearestStacked (Cert.KernelIdeal.Stack.stack a0 a1 a2 a3) (Cert.KernelIdeal.Stack.stack b0 b1 b2 b3) (ix3 p b μ)
      = Cert.Chamfer.nearest (![a0, a1, a2, a3] p) (![b0, b1, b2, b3] p) (ix2 b μ) := by
  have hP : ∀ d : Fin 3, atPoint (ix3 p b μ) d = ix4 p b d μ := fun d => rfl
  have hO : ∀ (d : Fin 3) (n : Fin 4096), atOther (ix3 p b μ) d n = ix4 p b d n := fun d n => rfl
  have hf : (fun n : Fin 4096 => pairSq (Cert.KernelIdeal.Stack.stack a0 a1 a2 a3)
        (Cert.KernelIdeal.Stack.stack b0 b1 b2 b3) (ix3 p b μ) n)
      = fun n => Cert.Chamfer.sqDist (![a0, a1, a2, a3] p) (![b0, b1, b2, b3] p) b μ n := by
    funext n
    unfold pairSq Cert.Chamfer.sqDist
    simp only [hP, hO, Cert.KernelIdeal.Stack.stack_apply]
  simp only [nearestStacked, Cert.Chamfer.nearest]
  rw [hf]

/-- The same at each of the four slabs, the pair named. -/
theorem nearestStacked_slab0 (a0 a1 a2 a3 b0 b1 b2 b3 : S4x4096x3.Idx → EReal) (b : Fin 4) (μ : Fin 4096) :
    nearestStacked (Cert.KernelIdeal.Stack.stack a0 a1 a2 a3) (Cert.KernelIdeal.Stack.stack b0 b1 b2 b3)
        (ix3 (0 : Fin 4) b μ)
      = Cert.Chamfer.nearest a0 b0 (ix2 b μ) :=
  nearestStacked_slab a0 a1 a2 a3 b0 b1 b2 b3 (0 : Fin 4) b μ

theorem nearestStacked_slab1 (a0 a1 a2 a3 b0 b1 b2 b3 : S4x4096x3.Idx → EReal) (b : Fin 4) (μ : Fin 4096) :
    nearestStacked (Cert.KernelIdeal.Stack.stack a0 a1 a2 a3) (Cert.KernelIdeal.Stack.stack b0 b1 b2 b3)
        (ix3 (1 : Fin 4) b μ)
      = Cert.Chamfer.nearest a1 b1 (ix2 b μ) :=
  nearestStacked_slab a0 a1 a2 a3 b0 b1 b2 b3 (1 : Fin 4) b μ

theorem nearestStacked_slab2 (a0 a1 a2 a3 b0 b1 b2 b3 : S4x4096x3.Idx → EReal) (b : Fin 4) (μ : Fin 4096) :
    nearestStacked (Cert.KernelIdeal.Stack.stack a0 a1 a2 a3) (Cert.KernelIdeal.Stack.stack b0 b1 b2 b3)
        (ix3 (2 : Fin 4) b μ)
      = Cert.Chamfer.nearest a2 b2 (ix2 b μ) :=
  nearestStacked_slab a0 a1 a2 a3 b0 b1 b2 b3 (2 : Fin 4) b μ

theorem nearestStacked_slab3 (a0 a1 a2 a3 b0 b1 b2 b3 : S4x4096x3.Idx → EReal) (b : Fin 4) (μ : Fin 4096) :
    nearestStacked (Cert.KernelIdeal.Stack.stack a0 a1 a2 a3) (Cert.KernelIdeal.Stack.stack b0 b1 b2 b3)
        (ix3 (3 : Fin 4) b μ)
      = Cert.Chamfer.nearest a3 b3 (ix2 b μ) :=
  nearestStacked_slab a0 a1 a2 a3 b0 b1 b2 b3 (3 : Fin 4) b μ

/-- A slab of the output array, as the host takes it: the slice of extent one at `p` along the leading axis, that axis
    dropped, reads at (b, μ) the array at (p, b, μ). -/
theorem slice_reshape_apply (O : S4x4x4096.Idx → EReal) (p : Nat) (hp : p < 4)
    (h : S4x4x4096.Slices ![p, 0, 0] S1x4x4096) (b : Fin 4) (μ : Fin 4096) :
    shapeCast S4x4096 (extractStridedSlice S1x4x4096 ![p, 0, 0] O h) shapeCasts_S1x4x4096_S4x4096 (ix2 b μ)
      = O (ix3 (⟨p, hp⟩ : Fin 4) b μ) := by
  refine (shapeCast_1ab_ab_apply _ shapeCasts_S1x4x4096_S4x4096 b μ).trans ?_
  exact extractStridedSlice_apply ![p, 0, 0] O h (ix3 (0 : Fin 1) b μ) (ix3 (⟨p, hp⟩ : Fin 4) b μ)
    (fun a => match a with
      | ⟨0, _⟩ => by show p = p + 0; omega
      | ⟨1, _⟩ => by show b.val = 0 + b.val; omega
      | ⟨2, _⟩ => by show μ.val = 0 + μ.val; omega)

/-- Slab `p` of the output array over two stacks is the nearest-point array of the `p`-th pair of clouds. -/
theorem slab_fn0 (a0 a1 a2 a3 b0 b1 b2 b3 : S4x4096x3.Idx → EReal) :
    shapeCast S4x4096
        (extractStridedSlice S1x4x4096 ![0, 0, 0]
          (nearestStacked (Cert.KernelIdeal.Stack.stack a0 a1 a2 a3) (Cert.KernelIdeal.Stack.stack b0 b1 b2 b3))
          slices_S4x4x4096_S1x4x4096_0_0_0)
        shapeCasts_S1x4x4096_S4x4096
      = Cert.Chamfer.nearest a0 b0 := by
  funext j
  obtain ⟨b, μ, rfl⟩ : ∃ (b : Fin 4) (μ : Fin 4096), j = ix2 b μ := ⟨j 0, j 1, eq_ix2 j⟩
  exact (slice_reshape_apply _ 0 (by decide) slices_S4x4x4096_S1x4x4096_0_0_0 b μ).trans
    (nearestStacked_slab0 a0 a1 a2 a3 b0 b1 b2 b3 b μ)

theorem slab_fn1 (a0 a1 a2 a3 b0 b1 b2 b3 : S4x4096x3.Idx → EReal) :
    shapeCast S4x4096
        (extractStridedSlice S1x4x4096 ![1, 0, 0]
          (nearestStacked (Cert.KernelIdeal.Stack.stack a0 a1 a2 a3) (Cert.KernelIdeal.Stack.stack b0 b1 b2 b3))
          slices_S4x4x4096_S1x4x4096_1_0_0)
        shapeCasts_S1x4x4096_S4x4096
      = Cert.Chamfer.nearest a1 b1 := by
  funext j
  obtain ⟨b, μ, rfl⟩ : ∃ (b : Fin 4) (μ : Fin 4096), j = ix2 b μ := ⟨j 0, j 1, eq_ix2 j⟩
  exact (slice_reshape_apply _ 1 (by decide) slices_S4x4x4096_S1x4x4096_1_0_0 b μ).trans
    (nearestStacked_slab1 a0 a1 a2 a3 b0 b1 b2 b3 b μ)

theorem slab_fn2 (a0 a1 a2 a3 b0 b1 b2 b3 : S4x4096x3.Idx → EReal) :
    shapeCast S4x4096
        (extractStridedSlice S1x4x4096 ![2, 0, 0]
          (nearestStacked (Cert.KernelIdeal.Stack.stack a0 a1 a2 a3) (Cert.KernelIdeal.Stack.stack b0 b1 b2 b3))
          slices_S4x4x4096_S1x4x4096_2_0_0)
        shapeCasts_S1x4x4096_S4x4096
      = Cert.Chamfer.nearest a2 b2 := by
  funext j
  obtain ⟨b, μ, rfl⟩ : ∃ (b : Fin 4) (μ : Fin 4096), j = ix2 b μ := ⟨j 0, j 1, eq_ix2 j⟩
  exact (slice_reshape_apply _ 2 (by decide) slices_S4x4x4096_S1x4x4096_2_0_0 b μ).trans
    (nearestStacked_slab2 a0 a1 a2 a3 b0 b1 b2 b3 b μ)

theorem slab_fn3 (a0 a1 a2 a3 b0 b1 b2 b3 : S4x4096x3.Idx → EReal) :
    shapeCast S4x4096
        (extractStridedSlice S1x4x4096 ![3, 0, 0]
          (nearestStacked (Cert.KernelIdeal.Stack.stack a0 a1 a2 a3) (Cert.KernelIdeal.Stack.stack b0 b1 b2 b3))
          slices_S4x4x4096_S1x4x4096_3_0_0)
        shapeCasts_S1x4x4096_S4x4096
      = Cert.Chamfer.nearest a3 b3 := by
  funext j
  obtain ⟨b, μ, rfl⟩ : ∃ (b : Fin 4) (μ : Fin 4096), j = ix2 b μ := ⟨j 0, j 1, eq_ix2 j⟩
  exact (slice_reshape_apply _ 3 (by decide) slices_S4x4x4096_S1x4x4096_3_0_0 b μ).trans
    (nearestStacked_slab3 a0 a1 a2 a3 b0 b1 b2 b3 b μ)

end Cert.KernelIdeal.Output

end
-- ==== Proof.KernelIdealResult.lean ====
/-
  The kernel program's result. The launch's two operands are the stacks of transposed clouds (0, 1, 0, 1) and
  (1, 0, 2, 3); the launch leaves its output array at `nearestStacked` of them; slab `p` of that array is the matrix of
  nearest distances from the `p`-th first cloud to the `p`-th second cloud; and the host operations after the launch
  take the loss of the four slabs. So the program ends with the loss of nearest(0,1), nearest(1,0), nearest(0,2),
  nearest(1,3) of its four argument clouds.
-/
import proofs.«178926_j66022237274638_2_alg».proof.Proof.KernelIdealOutput
import proofs.«178926_j66022237274638_2_alg».proof.Proof.KernelIdealHost
import proofs.«178926_j66022237274638_2_alg».proof.Proof.KernelIdealSlabs
import proofs.«178926_j66022237274638_2_alg».proof.Proof.Spec

set_option maxRecDepth 16384

noncomputable section

namespace Cert.KernelIdeal.Result

open Cert.KernelIdeal Cert.KernelIdeal.Gen Cert.KernelIdeal.Frame Cert.KernelIdeal.Output Cert.KernelIdeal.Host Cert.KernelIdeal.Stack
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The launch's first operand: the stack of the transposed clouds 0, 1, 0, 1. -/
theorem V8_eq (c : Dev nD) : V m c main_v8 = stack (m ((c.tc : Thread nD τ).loc main_arg0)) (m ((c.tc : Thread nD τ).loc main_arg1)) (m ((c.tc : Thread nD τ).loc main_arg0)) (m ((c.tc : Thread nD τ).loc main_arg1)) := by
  show StableHlo.after (List.flatten [hostOps0]) (fun b => m (c, b)) (Proc.devRef .tc main_v8) = _
  rw [flatten_one]
  exact prefix8 (fun b => m (c, b))

/-- The launch's second operand: the stack of the transposed clouds 1, 0, 2, 3. -/
theorem V17_eq (c : Dev nD) : V m c main_v17 = stack (m ((c.tc : Thread nD τ).loc main_arg1)) (m ((c.tc : Thread nD τ).loc main_arg0)) (m ((c.tc : Thread nD τ).loc main_arg2)) (m ((c.tc : Thread nD τ).loc main_arg3)) := by
  show StableHlo.after (List.flatten [hostOps0]) (fun b => m (c, b)) (Proc.devRef .tc main_v17) = _
  rw [flatten_one]
  exact prefix17 (fun b => m (c, b))

/-- The result buffer after the host operations that follow the launch. -/
theorem result (c : Dev nD) :
    Pipeline.afterTail₀ cfgs (dats m) 0 (V0 m) [hostOps1] c main_v37
      = lossOf (Cert.Chamfer.nearest (m ((c.tc : Thread nD τ).loc main_arg0)) (m ((c.tc : Thread nD τ).loc main_arg1))) (Cert.Chamfer.nearest (m ((c.tc : Thread nD τ).loc main_arg1)) (m ((c.tc : Thread nD τ).loc main_arg0)))
          (Cert.Chamfer.nearest (m ((c.tc : Thread nD τ).loc main_arg0)) (m ((c.tc : Thread nD τ).loc main_arg2))) (Cert.Chamfer.nearest (m ((c.tc : Thread nD τ).loc main_arg1)) (m ((c.tc : Thread nD τ).loc main_arg3))) := by
  unfold Pipeline.afterTail₀
  rw [flatten_one, tail_eq]
  have hO : Pipeline.withArrays spec0 c (V0 m c) (fun w => (dats m 0 c).arrAt w cfg0.N) (Proc.devRef .tc main_v18)
      = nearestStacked (stack (m ((c.tc : Thread nD τ).loc main_arg0)) (m ((c.tc : Thread nD τ).loc main_arg1)) (m ((c.tc : Thread nD τ).loc main_arg0)) (m ((c.tc : Thread nD τ).loc main_arg1))) (stack (m ((c.tc : Thread nD τ).loc main_arg1)) (m ((c.tc : Thread nD τ).loc main_arg0)) (m ((c.tc : Thread nD τ).loc main_arg2)) (m ((c.tc : Thread nD τ).loc main_arg3))) := by
    refine (Pipeline.withArrays_arr spec0 launch0.win.arr_inj c _ _ 2).trans ?_
    rw [final m c, V8_eq, V17_eq]
  rw [hO]
  unfold sl
  rw [slab_fn0, slab_fn1, slab_fn2, slab_fn3]

end Cert.KernelIdeal.Result

end
-- ==== Proof.NearestLaws.lean ====
/-
  The mathematics of the nearest-point distance, apart from any program.

  (1) For real coordinates the expanded form of the squared distance, |a|² + |b|² − 2 a·b with each of the three
      sums started from zero, is the sum of the three squared coordinate differences (in either order of the
      difference). Over the extended reals the expansion is not an identity (∞ − ∞), which is why the coordinates
      are real here.
  (2) x ↦ √(max x 0) is monotone on the extended reals and sends ⊤ to ⊤, so it commutes with a minimum taken from ⊤
      over a finite family: the least distance is the root of the least clamped squared distance.
-/
import Idealize.ShloMosaic.PureOps.Ideal
import proofs.«178926_j66022237274638_2_alg».proof.Proof.Spec

noncomputable section

namespace Cert.Chamfer

open Idealize.ShloMosaic Idealize.ShloMosaic.ValueIdx

/-- The pattern of `+0.0` denotes `0`. -/
theorem ofBits_zero : Ideal.ofBits .f32 0x00000000#32 = 0 := by
  simp [Ideal.ofBits, Ideal.ieee]

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `+∞` denotes `⊤`. -/
theorem ofBits_posInf : Ideal.ofBits .f32 0x7F800000#32 = ⊤ := by
  simp [Ideal.ofBits, Ideal.ieee]

/-- The squared distance in expanded form: the squared norms of `a` and of `b`, each summed from the zero
    constant, added, less twice the inner product. -/
def expandedSq (a b : Fin 3 → EReal) : EReal :=
  ((Ideal.ofBits .f32 0x00000000#32 + ∑ k : Fin 3, a k * a k)
      + (Ideal.ofBits .f32 0x00000000#32 + ∑ k : Fin 3, b k * b k))
    - Ideal.ofBits .f32 0x40000000#32 * ∑ k : Fin 3, a k * b k

/-- For real coordinates the expanded form is the sum of the squared differences `a k - b k`. -/
theorem expandedSq_coe (a b : Fin 3 → ℝ) :
    expandedSq (fun k => (a k : EReal)) (fun k => (b k : EReal))
      = 0 + ((a 0 : EReal) - (b 0 : EReal)) * ((a 0 : EReal) - (b 0 : EReal))
          + ((a 1 : EReal) - (b 1 : EReal)) * ((a 1 : EReal) - (b 1 : EReal))
          + ((a 2 : EReal) - (b 2 : EReal)) * ((a 2 : EReal) - (b 2 : EReal)) := by
  unfold expandedSq
  rw [ofBits_zero, ofBits_two, Fin.sum_univ_three, Fin.sum_univ_three, Fin.sum_univ_three,
    show (0 : EReal) = ((0 : ℝ) : EReal) from rfl]
  simp only [← EReal.coe_mul, ← EReal.coe_add, ← EReal.coe_sub]
  exact congrArg (fun r : ℝ => (r : EReal)) (by ring)

/-- … and equally the sum of the squared differences `b k - a k`. -/
theorem expandedSq_coe_symm (a b : Fin 3 → ℝ) :
    expandedSq (fun k => (a k : EReal)) (fun k => (b k : EReal))
      = 0 + ((b 0 : EReal) - (a 0 : EReal)) * ((b 0 : EReal) - (a 0 : EReal))
          + ((b 1 : EReal) - (a 1 : EReal)) * ((b 1 : EReal) - (a 1 : EReal))
          + ((b 2 : EReal) - (a 2 : EReal)) * ((b 2 : EReal) - (a 2 : EReal)) := by
  unfold expandedSq
  rw [ofBits_zero, ofBits_two, Fin.sum_univ_three, Fin.sum_univ_three, Fin.sum_univ_three,
    show (0 : EReal) = ((0 : ℝ) : EReal) from rfl]
  simp only [← EReal.coe_mul, ← EReal.coe_add, ← EReal.coe_sub]
  exact congrArg (fun r : ℝ => (r : EReal)) (by ring)

/-- Over clouds of real points the expanded form, read at the coordinates of point `m` of `A` and point `n` of
    `B`, is the squared distance of the specification. -/
theorem expandedSq_eq_sqDist (A B : Cloud) (hA : ∀ i, ∃ r : ℝ, A i = (r : EReal)) (hB : ∀ i, ∃ r : ℝ, B i = (r : EReal))
    (b : Fin 4) (m n : Fin 4096) :
    expandedSq (fun k => A (ix3 b m k)) (fun k => B (ix3 b n k)) = sqDist A B b m n := by
  choose rA hrA using hA
  choose rB hrB using hB
  have ha : (fun k : Fin 3 => A (ix3 b m k)) = fun k => ((rA (ix3 b m k) : ℝ) : EReal) := funext fun k => hrA _
  have hb : (fun k : Fin 3 => B (ix3 b n k)) = fun k => ((rB (ix3 b n k) : ℝ) : EReal) := funext fun k => hrB _
  rw [ha, hb, expandedSq_coe (fun k => rA (ix3 b m k)) (fun k => rB (ix3 b n k))]
  unfold sqDist
  simp only [hrA, hrB]

/-- The squared distance is symmetric, so the same expanded form is also the squared distance from point `n` of `B`
    to point `m` of `A`. -/
theorem expandedSq_eq_sqDist_symm (A B : Cloud) (hA : ∀ i, ∃ r : ℝ, A i = (r : EReal))
    (hB : ∀ i, ∃ r : ℝ, B i = (r : EReal)) (b : Fin 4) (m n : Fin 4096) :
    expandedSq (fun k => A (ix3 b m k)) (fun k => B (ix3 b n k)) = sqDist B A b n m := by
  choose rA hrA using hA
  choose rB hrB using hB
  have ha : (fun k : Fin 3 => A (ix3 b m k)) = fun k => ((rA (ix3 b m k) : ℝ) : EReal) := funext fun k => hrA _
  have hb : (fun k : Fin 3 => B (ix3 b n k)) = fun k => ((rB (ix3 b n k) : ℝ) : EReal) := funext fun k => hrB _
  rw [ha, hb, expandedSq_coe_symm (fun k => rA (ix3 b m k)) (fun k => rB (ix3 b n k))]
  unfold sqDist
  simp only [hrA, hrB]

/-- The square root of the extended reals (junk `⊥` below zero) is monotone. -/
theorem sqrt_mono : Monotone Ideal.sqrt := by
  intro x y hxy
  induction x using EReal.rec with
  | bot => exact bot_le
  | top =>
    have : y = ⊤ := top_le_iff.1 hxy
    rw [this]
  | coe r =>
    induction y using EReal.rec with
    | bot => exact absurd hxy (by simp)
    | top => simp
    | coe s =>
      have hrs : r ≤ s := EReal.coe_le_coe_iff.1 hxy
      rw [Ideal.sqrt_coe, Ideal.sqrt_coe]
      by_cases hr : r < 0
      · rw [if_pos hr]; exact bot_le
      · rw [if_neg hr, if_neg (by linarith)]
        exact EReal.coe_le_coe_iff.2 (Real.sqrt_le_sqrt hrs)

/-- Clamp below at zero, then take the root. -/
def rootClamp (x : EReal) : EReal := Ideal.sqrt (max x 0)

theorem rootClamp_mono : Monotone rootClamp :=
  fun _ _ h => sqrt_mono (max_le_max h le_rfl)

theorem rootClamp_top : rootClamp ⊤ = ⊤ := by
  unfold rootClamp
  rw [max_eq_left le_top, Ideal.sqrt_top]

/-- The least of the roots is the root of the least: over any finite family, from `⊤`. -/
theorem fold_min_rootClamp {ι : Type} (s : Finset ι) (f : ι → EReal) :
    s.fold min ⊤ (fun k => rootClamp (f k)) = rootClamp (s.fold min ⊤ f) := by
  have h := Finset.fold_hom (op := min) (op' := min) (s := s) (f := f) (b := (⊤ : EReal)) (m := rootClamp)
    (fun x y => rootClamp_mono.map_min)
  rw [rootClamp_top] at h
  exact h

end Cert.Chamfer

end
-- ==== Proof.RefDist.lean ====
/-
  The reference's pairwise distance arrays, read at one entry.

  For each of the three pairs of clouds the reference forms a [4, 4096, 4096] array: entry (b, m, n) is
  √(max(|a|² + |c|² − 2 a·c, 0)) where a is point m of the first cloud and c point n of the second, both in batch b;
  the squared norms are sums over the three coordinates started from the zero constant and broadcast along the other
  cloud's axis, and the inner product is a contraction over the coordinate axis. Reading the operations one by one at
  the entry leaves exactly the expanded squared distance of the two points' coordinates under the clamped root.
-/
import proofs.«178926_j66022237274638_2_alg».proof.Proof.Gen.ReferenceIdeal.Read
import proofs.«178926_j66022237274638_2_alg».proof.Proof.NearestLaws

noncomputable section

namespace Cert.Chamfer.Ref

open Cert.ReferenceIdeal Cert.ReferenceIdeal.Gen Cert.ReferenceIdeal.Read
open Idealize.ShloMosaic Idealize.ShloMosaic.StableHlo Idealize.ShloMosaic.ValueIdx

/-- The reference's distance array for the pair (`x0`, `x1`) at batch `b`, point `m` of the first cloud and point `n` of
    the second: the clamped root of the expanded squared distance of their coordinates. -/
theorem v15_at (x0 x1 : (⟨S4x4096x3, .f32⟩ : BufTy).Contents (Elt Ideal)) (b : Fin 4) (m n : Fin 4096) :
    val_main_v15 (F := Ideal) x0 x1 (ix3 b m n)
      = rootClamp (expandedSq (fun k => x0 (ix3 b m k)) (fun k => x1 (ix3 b n k))) := by
  have e1 : ∀ k : Fin 3, idx_main_v1 (idx_main_v5 (idx_main_v7 (ix3 b m n))) k = ix3 b m k := fun k =>
    funext fun a => Fin.ext (by match a with | ⟨0, _⟩ => rfl | ⟨1, _⟩ => rfl | ⟨2, _⟩ => rfl)
  have e2 : ∀ k : Fin 3, idx_main_v3 (idx_main_v6 (idx_main_v8 (ix3 b m n))) k = ix3 b n k := fun k =>
    funext fun a => Fin.ext (by match a with | ⟨0, _⟩ => rfl | ⟨1, _⟩ => rfl | ⟨2, _⟩ => rfl)
  have el : ∀ k : Fin 3, lidx_main_v4 (ix3 b m n) k = ix3 b m k := fun k =>
    funext fun a => Fin.ext (by match a with | ⟨0, _⟩ => rfl | ⟨1, _⟩ => rfl | ⟨2, _⟩ => rfl)
  have er : ∀ k : Fin 3, ridx_main_v4 (ix3 b m n) k = ix3 b n k := fun k =>
    funext fun a => Fin.ext (by match a with | ⟨0, _⟩ => rfl | ⟨1, _⟩ => rfl | ⟨2, _⟩ => rfl)
  rw [val_main_v15_apply, val_main_v14_apply, val_main_v12_apply, val_main_v9_apply, val_main_v7_apply,
    val_main_v5_apply, val_main_v1_apply, val_main_v8_apply, val_main_v6_apply, val_main_v3_apply,
    val_main_v11_apply, val_main_v10_apply, val_main_v4_apply, val_main_v13_apply]
  simp only [val_main_v0_apply, val_main_v2_apply, val_main_cst_apply, val_main_cst_0_apply, val_main_cst_1_apply,
    val_main_cst_2_apply, e1, e2, el, er, Ideal.ofBits_def, Ideal.addf_def, Ideal.subf_def, Ideal.mulf_def,
    Ideal.maximumf_def, Ideal.hostUnary_sqrt_def, rootClamp, expandedSq, ofBits_zero]

/-- The reference's distance array for the pair (`x0`, `x2`) at batch `b`, point `m` of the first cloud and point `n` of
    the second: the clamped root of the expanded squared distance of their coordinates. -/
theorem v38_at (x0 x2 : (⟨S4x4096x3, .f32⟩ : BufTy).Contents (Elt Ideal)) (b : Fin 4) (m n : Fin 4096) :
    val_main_v38 (F := Ideal) x0 x2 (ix3 b m n)
      = rootClamp (expandedSq (fun k => x0 (ix3 b m k)) (fun k => x2 (ix3 b n k))) := by
  have e1 : ∀ k : Fin 3, idx_main_v24 (idx_main_v28 (idx_main_v30 (ix3 b m n))) k = ix3 b m k := fun k =>
    funext fun a => Fin.ext (by match a with | ⟨0, _⟩ => rfl | ⟨1, _⟩ => rfl | ⟨2, _⟩ => rfl)
  have e2 : ∀ k : Fin 3, idx_main_v26 (idx_main_v29 (idx_main_v31 (ix3 b m n))) k = ix3 b n k := fun k =>
    funext fun a => Fin.ext (by match a with | ⟨0, _⟩ => rfl | ⟨1, _⟩ => rfl | ⟨2, _⟩ => rfl)
  have el : ∀ k : Fin 3, lidx_main_v27 (ix3 b m n) k = ix3 b m k := fun k =>
    funext fun a => Fin.ext (by match a with | ⟨0, _⟩ => rfl | ⟨1, _⟩ => rfl | ⟨2, _⟩ => rfl)
  have er : ∀ k : Fin 3, ridx_main_v27 (ix3 b m n) k = ix3 b n k := fun k =>
    funext fun a => Fin.ext (by match a with | ⟨0, _⟩ => rfl | ⟨1, _⟩ => rfl | ⟨2, _⟩ => rfl)
  rw [val_main_v38_apply, val_main_v37_apply, val_main_v35_apply, val_main_v32_apply, val_main_v30_apply,
    val_main_v28_apply, val_main_v24_apply, val_main_v31_apply, val_main_v29_apply, val_main_v26_apply,
    val_main_v34_apply, val_main_v33_apply, val_main_v27_apply, val_main_v36_apply]
  simp only [val_main_v23_apply, val_main_v25_apply, val_main_cst_9_apply, val_main_cst_10_apply, val_main_cst_11_apply,
    val_main_cst_12_apply, e1, e2, el, er, Ideal.ofBits_def, Ideal.addf_def, Ideal.subf_def, Ideal.mulf_def,
    Ideal.maximumf_def, Ideal.hostUnary_sqrt_def, rootClamp, expandedSq, ofBits_zero]

/-- The reference's distance array for the pair (`x1`, `x3`) at batch `b`, point `m` of the first cloud and point `n` of
    the second: the clamped root of the expanded squared distance of their coordinates. -/
theorem v57_at (x1 x3 : (⟨S4x4096x3, .f32⟩ : BufTy).Contents (Elt Ideal)) (b : Fin 4) (m n : Fin 4096) :
    val_main_v57 (F := Ideal) x1 x3 (ix3 b m n)
      = rootClamp (expandedSq (fun k => x1 (ix3 b m k)) (fun k => x3 (ix3 b n k))) := by
  have e1 : ∀ k : Fin 3, idx_main_v43 (idx_main_v47 (idx_main_v49 (ix3 b m n))) k = ix3 b m k := fun k =>
    funext fun a => Fin.ext (by match a with | ⟨0, _⟩ => rfl | ⟨1, _⟩ => rfl | ⟨2, _⟩ => rfl)
  have e2 : ∀ k : Fin 3, idx_main_v45 (idx_main_v48 (idx_main_v50 (ix3 b m n))) k = ix3 b n k := fun k =>
    funext fun a => Fin.ext (by match a with | ⟨0, _⟩ => rfl | ⟨1, _⟩ => rfl | ⟨2, _⟩ => rfl)
  have el : ∀ k : Fin 3, lidx_main_v46 (ix3 b m n) k = ix3 b m k := fun k =>
    funext fun a => Fin.ext (by match a with | ⟨0, _⟩ => rfl | ⟨1, _⟩ => rfl | ⟨2, _⟩ => rfl)
  have er : ∀ k : Fin 3, ridx_main_v46 (ix3 b m n) k = ix3 b n k := fun k =>
    funext fun a => Fin.ext (by match a with | ⟨0, _⟩ => rfl | ⟨1, _⟩ => rfl | ⟨2, _⟩ => rfl)
  rw [val_main_v57_apply, val_main_v56_apply, val_main_v54_apply, val_main_v51_apply, val_main_v49_apply,
    val_main_v47_apply, val_main_v43_apply, val_main_v50_apply, val_main_v48_apply, val_main_v45_apply,
    val_main_v53_apply, val_main_v52_apply, val_main_v46_apply, val_main_v55_apply]
  simp only [val_main_v42_apply, val_main_v44_apply, val_main_cst_16_apply, val_main_cst_17_apply, val_main_cst_18_apply,
    val_main_cst_19_apply, e1, e2, el, er, Ideal.ofBits_def, Ideal.addf_def, Ideal.subf_def, Ideal.mulf_def,
    Ideal.maximumf_def, Ideal.hostUnary_sqrt_def, rootClamp, expandedSq, ofBits_zero]

end Cert.Chamfer.Ref

end
-- ==== Proof.RefReduce.lean ====
/-
  A minimum over one axis of a [4, 4096, 4096] array, read at one entry of the result.

  The reference takes the least entry along the last axis (for each point of the first cloud, over the points of the
  second) or along the middle axis (for each point of the second cloud, over the points of the first), starting from
  +∞. At an entry of the [4, 4096] result this is the fold of `min` from `⊤` over the 4096 entries of the source that
  project to it.
-/
import proofs.«178926_j66022237274638_2_alg».proof.Proof.Gen.ReferenceIdeal.Read
import proofs.«178926_j66022237274638_2_alg».proof.Proof.NearestLaws

noncomputable section

namespace Cert.Chamfer.Ref

open Cert.ReferenceIdeal Cert.ReferenceIdeal.Gen Cert.ReferenceIdeal.Read
open Idealize.ShloMosaic Idealize.ShloMosaic.StableHlo Idealize.ShloMosaic.ValueIdx

/-- Entry `(b, m)` of the result with `k` put back on the last axis is entry `(b, m, k)` of the source. -/
theorem lift_last (h : S4x4096x4096.Reduces [2] S4x4096) (b : Fin 4) (m : Fin 4096) (k : Fin (S4x4096x4096.size 2)) :
    h.lift (ix2 b m) k = ix3 b m (⟨k.val, k.isLt⟩ : Fin 4096) := by
  funext c; apply Fin.ext
  fin_cases c <;> rfl

/-- Entry `(b, n)` of the result with `k` put back on the middle axis is entry `(b, k, n)` of the source. -/
theorem lift_mid (h : S4x4096x4096.Reduces [1] S4x4096) (b : Fin 4) (n : Fin 4096) (k : Fin (S4x4096x4096.size 1)) :
    h.lift (ix2 b n) k = ix3 b (⟨k.val, k.isLt⟩ : Fin 4096) n := by
  funext c; apply Fin.ext
  fin_cases c <;> rfl

/-- The minimum over the last axis from +∞, at `(b, m)`: the least of the entries `(b, m, n)`. -/
theorem reduce_min_last (y : (⟨S4x4096x4096, .f32⟩ : BufTy).Contents (Elt Ideal)) (b : Fin 4) (m : Fin 4096) :
    Host.reduce (FloatOps.minimumf (F := Ideal) (φ := .f32)) y (constant (F := Ideal) S_ .f32 0x7F800000#32)
        reducesTo_S4x4096x4096_S4x4096_d2 h_S_ (ix2 b m)
      = (Finset.univ : Finset (Fin 4096)).fold min ⊤ (fun n => y (ix3 b m n)) := by
  have h : S4x4096x4096.Reduces [2] S4x4096 := by decide
  rw [Host.reduce_eq_fold_single (FloatOps.minimumf (F := Ideal) (φ := .f32)) y _ reducesTo_S4x4096x4096_S4x4096_d2 h h_S_]
  have hf : (y ∘ h.lift (ix2 b m)) = fun n : Fin 4096 => y (ix3 b m n) := funext fun k => congrArg y (lift_last h b m k)
  have hi : (constant (F := Ideal) S_ .f32 0x7F800000#32) (Shape.Idx.first h_S_) = (⊤ : EReal) := ofBits_posInf
  rw [hi]
  exact congrArg (fun f => Finset.fold min (⊤ : EReal) f (Finset.univ : Finset (Fin 4096))) hf

/-- The minimum over the middle axis from +∞, at `(b, n)`: the least of the entries `(b, m, n)`. -/
theorem reduce_min_mid (y : (⟨S4x4096x4096, .f32⟩ : BufTy).Contents (Elt Ideal)) (b : Fin 4) (n : Fin 4096) :
    Host.reduce (FloatOps.minimumf (F := Ideal) (φ := .f32)) y (constant (F := Ideal) S_ .f32 0x7F800000#32)
        reducesTo_S4x4096x4096_S4x4096_d1 h_S_ (ix2 b n)
      = (Finset.univ : Finset (Fin 4096)).fold min ⊤ (fun m => y (ix3 b m n)) := by
  have h : S4x4096x4096.Reduces [1] S4x4096 := by decide
  rw [Host.reduce_eq_fold_single (FloatOps.minimumf (F := Ideal) (φ := .f32)) y _ reducesTo_S4x4096x4096_S4x4096_d1 h h_S_]
  have hf : (y ∘ h.lift (ix2 b n)) = fun m : Fin 4096 => y (ix3 b m n) := funext fun k => congrArg y (lift_mid h b n k)
  have hi : (constant (F := Ideal) S_ .f32 0x7F800000#32) (Shape.Idx.first h_S_) = (⊤ : EReal) := ofBits_posInf
  rw [hi]
  exact congrArg (fun f => Finset.fold min (⊤ : EReal) f (Finset.univ : Finset (Fin 4096))) hf

/-- The four minima the reference takes, each at an entry, over the distance array it is taken of. -/
theorem v16_at (x0 x1 : (⟨S4x4096x3, .f32⟩ : BufTy).Contents (Elt Ideal)) (b : Fin 4) (m : Fin 4096) :
    val_main_v16 (F := Ideal) x0 x1 (ix2 b m)
      = (Finset.univ : Finset (Fin 4096)).fold min ⊤ (fun n => val_main_v15 (F := Ideal) x0 x1 (ix3 b m n)) := by
  unfold val_main_v16 val_main_cst_3
  generalize val_main_v15 (F := Ideal) x0 x1 = y
  exact reduce_min_last y b m

theorem v19_at (x0 x1 : (⟨S4x4096x3, .f32⟩ : BufTy).Contents (Elt Ideal)) (b : Fin 4) (n : Fin 4096) :
    val_main_v19 (F := Ideal) x0 x1 (ix2 b n)
      = (Finset.univ : Finset (Fin 4096)).fold min ⊤ (fun m => val_main_v15 (F := Ideal) x0 x1 (ix3 b m n)) := by
  unfold val_main_v19 val_main_cst_6
  generalize val_main_v15 (F := Ideal) x0 x1 = y
  exact reduce_min_mid y b n

theorem v39_at (x0 x2 : (⟨S4x4096x3, .f32⟩ : BufTy).Contents (Elt Ideal)) (b : Fin 4) (m : Fin 4096) :
    val_main_v39 (F := Ideal) x0 x2 (ix2 b m)
      = (Finset.univ : Finset (Fin 4096)).fold min ⊤ (fun n => val_main_v38 (F := Ideal) x0 x2 (ix3 b m n)) := by
  unfold val_main_v39 val_main_cst_13
  generalize val_main_v38 (F := Ideal) x0 x2 = y
  exact reduce_min_last y b m

theorem v58_at (x1 x3 : (⟨S4x4096x3, .f32⟩ : BufTy).Contents (Elt Ideal)) (b : Fin 4) (m : Fin 4096) :
    val_main_v58 (F := Ideal) x1 x3 (ix2 b m)
      = (Finset.univ : Finset (Fin 4096)).fold min ⊤ (fun n => val_main_v57 (F := Ideal) x1 x3 (ix3 b m n)) := by
  unfold val_main_v58 val_main_cst_20
  generalize val_main_v57 (F := Ideal) x1 x3 = y
  exact reduce_min_last y b m

end Cert.Chamfer.Ref

end
-- ==== Proof.RefNearest.lean ====
/-
  The four arrays the reference averages are nearest-point distances.

  Each is a minimum, over one axis, of a pairwise distance array whose entry is the clamped root of the expanded squared
  distance between a point of one cloud and a point of another. For clouds of real points the expanded form is the
  squared distance itself; the clamped root is monotone and fixes `⊤`, so the least of the roots is the root of the
  least squared distance: the distance to the nearest point, as the specification states it. The minimum over the
  middle axis gives, for each point of the SECOND cloud, the distance to the nearest point of the first; the squared
  distance being symmetric, that is the nearest-point distance with the two clouds exchanged.
-/
import proofs.«178926_j66022237274638_2_alg».proof.Proof.Gen.ReferenceIdeal.Read
import proofs.«178926_j66022237274638_2_alg».proof.Proof.RefDist
import proofs.«178926_j66022237274638_2_alg».proof.Proof.RefReduce

noncomputable section

namespace Cert.Chamfer.Ref

open Cert.ReferenceIdeal Cert.ReferenceIdeal.Gen Cert.ReferenceIdeal.Read
open Idealize.ShloMosaic Idealize.ShloMosaic.StableHlo Idealize.ShloMosaic.ValueIdx

/-- Minimum over the last axis for the first pair: from each point of `x0`, the distance to the nearest point of `x1`. -/
theorem nearest_v16 (x0 x1 : (⟨S4x4096x3, .f32⟩ : BufTy).Contents (Elt Ideal))
    (h0 : ∀ i, ∃ r : ℝ, x0 i = (r : EReal)) (h1 : ∀ i, ∃ r : ℝ, x1 i = (r : EReal)) :
    val_main_v16 (F := Ideal) x0 x1 = Cert.Chamfer.nearest x0 x1 := by
  funext j
  obtain ⟨b, m, rfl⟩ : ∃ (b : Fin 4) (m : Fin 4096), j = ix2 b m := ⟨j 0, j 1, eq_ix2 j⟩
  rw [v16_at]
  simp only [v15_at, expandedSq_eq_sqDist x0 x1 h0 h1]
  rw [fold_min_rootClamp]
  rfl

/-- Minimum over the middle axis for the first pair: from each point of `x1`, the distance to the nearest point of `x0`. -/
theorem nearest_v19 (x0 x1 : (⟨S4x4096x3, .f32⟩ : BufTy).Contents (Elt Ideal))
    (h0 : ∀ i, ∃ r : ℝ, x0 i = (r : EReal)) (h1 : ∀ i, ∃ r : ℝ, x1 i = (r : EReal)) :
    val_main_v19 (F := Ideal) x0 x1 = Cert.Chamfer.nearest x1 x0 := by
  funext j
  obtain ⟨b, n, rfl⟩ : ∃ (b : Fin 4) (n : Fin 4096), j = ix2 b n := ⟨j 0, j 1, eq_ix2 j⟩
  rw [v19_at]
  simp only [v15_at, expandedSq_eq_sqDist_symm x0 x1 h0 h1]
  rw [fold_min_rootClamp]
  rfl

/-- Minimum over the last axis for the second pair: from each point of `x0`, the distance to the nearest point of `x2`. -/
theorem nearest_v39 (x0 x2 : (⟨S4x4096x3, .f32⟩ : BufTy).Contents (Elt Ideal))
    (h0 : ∀ i, ∃ r : ℝ, x0 i = (r : EReal)) (h2 : ∀ i, ∃ r : ℝ, x2 i = (r : EReal)) :
    val_main_v39 (F := Ideal) x0 x2 = Cert.Chamfer.nearest x0 x2 := by
  funext j
  obtain ⟨b, m, rfl⟩ : ∃ (b : Fin 4) (m : Fin 4096), j = ix2 b m := ⟨j 0, j 1, eq_ix2 j⟩
  rw [v39_at]
  simp only [v38_at, expandedSq_eq_sqDist x0 x2 h0 h2]
  rw [fold_min_rootClamp]
  rfl

/-- Minimum over the last axis for the third pair: from each point of `x1`, the distance to the nearest point of `x3`. -/
theorem nearest_v58 (x1 x3 : (⟨S4x4096x3, .f32⟩ : BufTy).Contents (Elt Ideal))
    (h1 : ∀ i, ∃ r : ℝ, x1 i = (r : EReal)) (h3 : ∀ i, ∃ r : ℝ, x3 i = (r : EReal)) :
    val_main_v58 (F := Ideal) x1 x3 = Cert.Chamfer.nearest x1 x3 := by
  funext j
  obtain ⟨b, m, rfl⟩ : ∃ (b : Fin 4) (m : Fin 4096), j = ix2 b m := ⟨j 0, j 1, eq_ix2 j⟩
  rw [v58_at]
  simp only [v57_at, expandedSq_eq_sqDist x1 x3 h1 h3]
  rw [fold_min_rootClamp]
  rfl

end Cert.Chamfer.Ref

end
-- ==== Proof.FiniteInputs.lean ====
/-
  From the precondition to real entries.

  The precondition computes, for each of the four input arrays, whether every entry has absolute value below +∞,
  and is the conjunction of the four answers. Over the extended reals the absolute value of x is max x (−x), which is
  ⊤ at both infinities; so an entry passes the test exactly when it is a real number, and the precondition being true
  says every entry of every array is real.
-/
import proofs.«178926_j66022237274638_2_alg».proof.Pre_finite_inputs
import proofs.«178926_j66022237274638_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Chamfer.Finite

open Idealize.ShloMosaic Cert.Pre_finite_inputs Cert.Pre_finite_inputs.Facts

/-- The scalar shape has one index. -/
instance : Subsingleton S_.Idx := ⟨fun a b => funext fun d => d.elim0⟩

/-- An extended real whose absolute value is below +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | top => exact absurd h (by simp [Ideal.cmp])
  | coe r => exact ⟨r, rfl⟩

/-- One array's test: if "every entry has absolute value below +∞" came out true, every entry is real. -/
theorem all_real (x : FVec Ideal S4x4096x3 .f32)
    (e : Host.reduce IntOp.andi
          (cmpf .olt (Host.absf x) (broadcastInDim S4x4096x3 ![] bcast_S_S4x4096x3 (constant (F := Ideal) S_ .f32 0x7F800000#32)))
          (constantI S_ 1 1#1) reducesTo_S4x4096x3_S_d0_1_2 h_S_ ValueIdx.ix0 = 1#1) :
    ∀ i, ∃ r : ℝ, x i = (r : EReal) := by
  intro i
  have hi := Host.reduce_andi_all _ _ _ _ _ e i
  have hb : broadcastInDim S4x4096x3 ![] bcast_S_S4x4096x3 (constant (F := Ideal) S_ .f32 0x7F800000#32) i
      = Ideal.ofBits .f32 0x7F800000#32 :=
    broadcastInDim_apply _ bcast_S_S4x4096x3 _ i ValueIdx.ix0 (fun a => a.elim0)
  have hc : Ideal.cmp .olt (max (x i) (-(x i))) (Ideal.ofBits .f32 0x7F800000#32) = 1#1 := by
    rw [← hb]; exact hi
  exact real_of_abs_lt_top (x i) hc

/-- The precondition, true, makes every entry of the four arrays a real number. -/
theorem real_of_pre (x0 x1 x2 x3 : FVec Ideal S4x4096x3 .f32)
    (h : Cert.Pre_finite_inputs.fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h' := congrFun h ValueIdx.ix0
  dsimp only [fn, fn_part1] at h'
  obtain ⟨h012, h3⟩ := IntOp.andi_eq_one.1 h'
  obtain ⟨h01, h2⟩ := IntOp.andi_eq_one.1 h012
  obtain ⟨h0, h1⟩ := IntOp.andi_eq_one.1 h01
  exact ⟨all_real x0 h0, all_real x1 h1, all_real x2 h2, all_real x3 h3⟩

end Cert.Chamfer.Finite

end
-- ==== Proof.lean ====
/-
  The chamfer loss of four point clouds, computed two ways, is one number.

  The kernel program stacks the transposed clouds into two operands, and one launch over a 4 × 16 grid writes, for each
  of four pairs (first cloud, second cloud) — (0,1), (1,0), (0,2), (1,3) — and each point of the first cloud, the root
  of the clamped least squared distance to the 4096 points of the second, the squared distance summed coordinate by
  coordinate; the host then adds the four means. The reference expands each squared distance as
  |a|² + |b|² − 2 a·b, takes the root of its clamp, and takes minima along rows (and, for the second term, along
  columns) before the same four means. Over finite inputs the expansion is the sum of squared differences; the root of
  a clamp is monotone, so it commutes with a minimum; and a column minimum of a symmetric distance is the row minimum
  with the clouds exchanged. So both programs end at `lossOf` of the same four matrices of nearest distances.

  The frames of the two kernel programs are the launch library's run of one launch between two stretches of host
  operations, the body's triple proved by running the body step by step; the reference's frame is its run.
-/
import proofs.«178926_j66022237274638_2_alg».proof.Defs
import proofs.«178926_j66022237274638_2_alg».proof.Proof.Gen.Kernel
import proofs.«178926_j66022237274638_2_alg».proof.Proof.Gen.KernelIdeal
import proofs.«178926_j66022237274638_2_alg».proof.Proof.Gen.ReferenceIdeal
import proofs.«178926_j66022237274638_2_alg».proof.Proof.Gen.Pre_finite_inputs
import proofs.«178926_j66022237274638_2_alg».proof.Proof.Gen.ReferenceIdeal.Run
import proofs.«178926_j66022237274638_2_alg».proof.Proof.Gen.ReferenceIdeal.Read
import proofs.«178926_j66022237274638_2_alg».proof.Proof.KernelRun
import proofs.«178926_j66022237274638_2_alg».proof.Proof.KernelIdealRun
import proofs.«178926_j66022237274638_2_alg».proof.Proof.KernelIdealResult
import proofs.«178926_j66022237274638_2_alg».proof.Proof.RefNearest
import proofs.«178926_j66022237274638_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem

/-- The reference's result is the loss of the four matrices of nearest distances, when the clouds are finite. -/
theorem reference_loss (x0 x1 x2 x3 : FVec Ideal Cert.ReferenceIdeal.S4x4096x3 .f32)
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) :
    Cert.ReferenceIdeal.Read.val_main_v62 (F := Ideal) x0 x1 x2 x3
      = Cert.KernelIdeal.Host.lossOf (Cert.Chamfer.nearest x0 x1) (Cert.Chamfer.nearest x1 x0) (Cert.Chamfer.nearest x0 x2) (Cert.Chamfer.nearest x1 x3) := by
  show Cert.KernelIdeal.Host.lossOf (Cert.ReferenceIdeal.Read.val_main_v16 (F := Ideal) x0 x1) (Cert.ReferenceIdeal.Read.val_main_v19 (F := Ideal) x0 x1)
      (Cert.ReferenceIdeal.Read.val_main_v39 (F := Ideal) x0 x2) (Cert.ReferenceIdeal.Read.val_main_v58 (F := Ideal) x1 x3) = _
  rw [Cert.Chamfer.Ref.nearest_v16 x0 x1 h0 h1, Cert.Chamfer.Ref.nearest_v19 x0 x1 h0 h1,
    Cert.Chamfer.Ref.nearest_v39 x0 x2 h0 h2, Cert.Chamfer.Ref.nearest_v58 x1 x3 h1 h3]

theorem frame_kernel : Cert.frame_Kernel := fun m ρ _ => Cert.Kernel.Frame.frame m ρ

theorem frame_kernelIdeal : Cert.frame_KernelIdeal := fun m ρ _ => Cert.KernelIdeal.Frame.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal values: no operation was rewritten. -/
theorem preserves : Cert.preserves_Kernel_KernelIdeal := trivial

/-- Both idealized programs end at the loss of the same four matrices of nearest distances. -/
theorem algebraic : Cert.algebraic_KernelIdeal_ReferenceIdeal := by
  intro m ρ m' ρ' hpre hagree
  refine ⟨fun c => Cert.KernelIdeal.Host.lossOf (Cert.Chamfer.nearest (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Cert.Chamfer.nearest (m ((c.tc : Thread Cert.KernelIdeal.nD Cert.KernelIdeal.τ).loc Cert.KernelIdeal.main_arg1)) (m ((c.tc : Thread Cert.KernelIdeal.nD Cert.KernelIdeal.τ).loc Cert.KernelIdeal.main_arg0)))
      (Cert.Chamfer.nearest (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (Cert.Chamfer.nearest (m ((c.tc : Thread Cert.KernelIdeal.nD Cert.KernelIdeal.τ).loc Cert.KernelIdeal.main_arg1)) (m ((c.tc : Thread Cert.KernelIdeal.nD Cert.KernelIdeal.τ).loc Cert.KernelIdeal.main_arg3))), ?_, ?_⟩
  · exact (θ_run Cert.KernelIdeal.defs _ _).mono (fun r h c =>
      ⟨((h c).2 Cert.KernelIdeal.main_v37 (Pipeline.mem_restRefs_of Cert.KernelIdeal.main_v37 (by decide) (by decide))).trans (Cert.KernelIdeal.Result.result m c),
       ((h c).2 Cert.KernelIdeal.main_arg0 (Pipeline.mem_restRefs_of Cert.KernelIdeal.main_arg0 (by decide) (by decide))).trans (Cert.KernelIdeal.Frame.W_main_arg0 m (Cert.KernelIdeal.Frame.dats m) c),
       ((h c).2 Cert.KernelIdeal.main_arg1 (Pipeline.mem_restRefs_of Cert.KernelIdeal.main_arg1 (by decide) (by decide))).trans (Cert.KernelIdeal.Frame.W_main_arg1 m (Cert.KernelIdeal.Frame.dats m) c),
       ((h c).2 Cert.KernelIdeal.main_arg2 (Pipeline.mem_restRefs_of Cert.KernelIdeal.main_arg2 (by decide) (by decide))).trans (Cert.KernelIdeal.Frame.W_main_arg2 m (Cert.KernelIdeal.Frame.dats m) c),
       ((h c).2 Cert.KernelIdeal.main_arg3 (Pipeline.mem_restRefs_of Cert.KernelIdeal.main_arg3 (by decide) (by decide))).trans (Cert.KernelIdeal.Frame.W_main_arg3 m (Cert.KernelIdeal.Frame.dats m) c)⟩)
      (Cert.KernelIdeal.Frame.run_main m ρ)
  · refine (θ_run Cert.ReferenceIdeal.defs _ _).mono (fun r h c => ⟨?_, (h c).2⟩) (Cert.ReferenceIdeal.Value.run (F := Ideal) m' ρ')
    obtain ⟨h0, h1, h2, h3⟩ := Cert.Chamfer.Finite.real_of_pre _ _ _ _ (hpre c)
    rw [(h c).1, Cert.ReferenceIdeal.Read.val_main_v62_eq, (hagree c).1, (hagree c).2.1, (hagree c).2.2.1, (hagree c).2.2.2]
    exact reference_loss _ _ _ _ h0 h1 h2 h3

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
